-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S100000x64 : Shape := ⟨2, ![100000, 64]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S128x1 .f32 := Host.absf main_arg18
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg19
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg15 : FVec F S128x128 .f32) (main_arg16 : FVec F S128x128 .f32) (main_arg17 : FVec F S128 .f32) (main_arg18 : FVec F S128x1 .f32) (main_arg19 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg16
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_v63 main_v67

def fn_part2 {F : FTy → Type} [FloatOps F] (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x1 .f32) (main_arg19 : FVec F S1 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg15 main_arg16 main_arg17 main_arg18 main_arg19 main_v48 main_v49 main_v50

def fn_part1 {F : FTy → Type} [FloatOps F] (main_arg8 : FVec F S128 .f32) (main_arg9 : FVec F S64x128 .f32) (main_arg10 : FVec F S64x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x1 .f32) (main_arg19 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg9
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64x128 .f32 := Host.absf main_arg10
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg11 main_arg12 main_arg13 main_arg14 main_arg15 main_arg16 main_arg17 main_arg18 main_arg19 main_v33

def fn {F : FTy → Type} [FloatOps F] (main_arg0 : FVec F S500000x64 .f32) (main_arg1 : FVec F S100000x64 .f32) (main_arg2 : IVec S1000000 32) (main_arg3 : IVec S1000000 32) (main_arg4 : IVec S1000000 32) (main_arg5 : IVec S1000000 32) (main_arg6 : FVec F S64x128 .f32) (main_arg7 : FVec F S64x128 .f32) (main_arg8 : FVec F S128 .f32) (main_arg9 : FVec F S64x128 .f32) (main_arg10 : FVec F S64x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x1 .f32) (main_arg19 : FVec F S1 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x128 .f32 := Host.absf main_arg6
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64x128 .f32 := Host.absf main_arg7
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg8 main_arg9 main_arg10 main_arg11 main_arg12 main_arg13 main_arg14 main_arg15 main_arg16 main_arg17 main_arg18 main_arg19 main_v13 main_v16
-- ==== Kernel.lean ====
abbrev S500000x64 : Shape := ⟨2, ![500000, 64]⟩
abbrev S100000x64 : Shape := ⟨2, ![100000, 64]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S1000000x1 : Shape := ⟨2, ![1000000, 1]⟩
abbrev S1000000x64 : Shape := ⟨2, ![1000000, 64]⟩
abbrev S500000x1 : Shape := ⟨2, ![500000, 1]⟩
abbrev S100000x1 : Shape := ⟨2, ![100000, 1]⟩
abbrev S1x128 : Shape := ⟨2, ![1, 128]⟩
abbrev S500000x128 : Shape := ⟨2, ![500000, 128]⟩
abbrev S10000x64 : Shape := ⟨2, ![10000, 64]⟩
abbrev S10000x128 : Shape := ⟨2, ![10000, 128]⟩
abbrev S100000x128 : Shape := ⟨2, ![100000, 128]⟩
abbrev S1000000x128 : Shape := ⟨2, ![1000000, 128]⟩
abbrev S1x1 : Shape := ⟨2, ![1, 1]⟩
abbrev S10000x1 : Shape := ⟨2, ![10000, 1]⟩
abbrev S500000 : Shape := ⟨1, ![500000]⟩

abbrev nBuf : Space → Nat
  | .hbm => 100
  | .vmem => 29
  | .smem => 0
  | _ => 0

abbrev bufTy : (tb : Table) → Fin (tcTables nBuf tb) → BufTy
  | .hbm, ⟨0, _⟩ => ⟨S500000x64, .f32⟩
  | .hbm, ⟨1, _⟩ => ⟨S100000x64, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S64x128, .f32⟩
  | .hbm, ⟨7, _⟩ => ⟨S64x128, .f32⟩
  | .hbm, ⟨8, _⟩ => ⟨S128, .f32⟩
  | .hbm, ⟨9, _⟩ => ⟨S64x128, .f32⟩
  | .hbm, ⟨10, _⟩ => ⟨S64x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128x128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S_, .f32⟩
  | .hbm, ⟨30, _⟩ => ⟨S500000x64, .f32⟩
  | .hbm, ⟨31, _⟩ => ⟨S1000000x1, .i32⟩
  | .hbm, ⟨32, _⟩ => ⟨S500000x64, .f32⟩
  | .hbm, ⟨33, _⟩ => ⟨S_, .f32⟩
  | .hbm, ⟨34, _⟩ => ⟨S1000000x1, .f32⟩
  | .hbm, ⟨35, _⟩ => ⟨S_, .f32⟩
  | .hbm, ⟨36, _⟩ => ⟨S500000x1, .f32⟩
  | .hbm, ⟨37, _⟩ => ⟨S1000000x1, .i32⟩
  | .hbm, ⟨38, _⟩ => ⟨S500000x1, .f32⟩
  | .hbm, ⟨39, _⟩ => ⟨S_, .f32⟩
  | .hbm, ⟨40, _⟩ => ⟨S500000x1, .f32⟩
  | .hbm, ⟨41, _⟩ => ⟨S500000x1, .f32⟩
  | .hbm, ⟨42, _⟩ => ⟨S500000x64, .f32⟩
  | .hbm, ⟨43, _⟩ => ⟨S500000x64, .f32⟩
  | .hbm, ⟨44, _⟩ => ⟨S_, .i32⟩
  | .hbm, ⟨45, _⟩ => ⟨S1000000, .i32⟩
  | .hbm, ⟨46, _⟩ => ⟨S1000000, .i1⟩
  | .hbm, ⟨47, _⟩ => ⟨S_, .i32⟩
  | .hbm, ⟨48, _⟩ => ⟨S1000000, .i32⟩
  | .hbm, ⟨49, _⟩ => ⟨S1000000, .i32⟩
  | .hbm, ⟨50, _⟩ => ⟨S1000000, .i32⟩
  | .hbm, ⟨51, _⟩ => ⟨S1000000x1, .i32⟩
  | .hbm, ⟨52, _⟩ => ⟨S1000000x64, .f32⟩
  | .hbm, ⟨53, _⟩ => ⟨S_, .f32⟩
  | .hbm, ⟨54, _⟩ => ⟨S100000x64, .f32⟩
  | .hbm, ⟨55, _⟩ => ⟨S1000000x1, .i32⟩
  | .hbm, ⟨56, _⟩ => ⟨S100000x64, .f32⟩
  | .hbm, ⟨57, _⟩ => ⟨S_, .f32⟩
  | .hbm, ⟨58, _⟩ => ⟨S1000000x1, .f32⟩
  | .hbm, ⟨59, _⟩ => ⟨S_, .f32⟩
  | .hbm, ⟨60, _⟩ => ⟨S100000x1, .f32⟩
  | .hbm, ⟨61, _⟩ => ⟨S1000000x1, .i32⟩
  | .hbm, ⟨62, _⟩ => ⟨S100000x1, .f32⟩
  | .hbm, ⟨63, _⟩ => ⟨S_, .f32⟩
  | .hbm, ⟨64, _⟩ => ⟨S100000x1, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S1x128, .f32⟩
  | .hbm, ⟨69, _⟩ => ⟨S500000x128, .f32⟩
  | .hbm, ⟨70, _⟩ => ⟨S1x128, .f32⟩
  | .hbm, ⟨71, _⟩ => ⟨S100000x128, .f32⟩
  | .hbm, ⟨72, _⟩ => ⟨S_, .i32⟩
  | .hbm, ⟨73, _⟩ => ⟨S1000000, .i32⟩
  | .hbm, ⟨74, _⟩ => ⟨S1000000, .i1⟩
  | .hbm, ⟨75, _⟩ => ⟨S_, .i32⟩
  | .hbm, ⟨76, _⟩ => ⟨S1000000, .i32⟩
  | .hbm, ⟨77, _⟩ => ⟨S1000000, .i32⟩
  | .hbm, ⟨78, _⟩ => ⟨S1000000, .i32⟩
  | .hbm, ⟨79, _⟩ => ⟨S1000000x1, .i32⟩
  | .hbm, ⟨80, _⟩ => ⟨S1000000x128, .f32⟩
  | .hbm, ⟨81, _⟩ => ⟨S_, .f32⟩
  | .hbm, ⟨82, _⟩ => ⟨S500000x128, .f32⟩
  | .hbm, ⟨83, _⟩ => ⟨S1000000x1, .i32⟩
  | .hbm, ⟨84, _⟩ => ⟨S500000x128, .f32⟩
  | .hbm, ⟨85, _⟩ => ⟨S_, .f32⟩
  | .hbm, ⟨86, _⟩ => ⟨S1000000x1, .f32⟩
  | .hbm, ⟨87, _⟩ => ⟨S_, .f32⟩
  | .hbm, ⟨88, _⟩ => ⟨S500000x1, .f32⟩
  | .hbm, ⟨89, _⟩ => ⟨S1000000x1, .i32⟩
  | .hbm, ⟨90, _⟩ => ⟨S500000x1, .f32⟩
  | .hbm, ⟨91, _⟩ => ⟨S_, .f32⟩
  | .hbm, ⟨92, _⟩ => ⟨S500000x1, .f32⟩
  | .hbm, ⟨93, _⟩ => ⟨S500000x1, .f32⟩
  | .hbm, ⟨94, _⟩ => ⟨S500000x128, .f32⟩
  | .hbm, ⟨95, _⟩ => ⟨S500000x128, .f32⟩
  | .hbm, ⟨96, _⟩ => ⟨S1x128, .f32⟩
  | .hbm, ⟨97, _⟩ => ⟨S1x1, .f32⟩
  | .hbm, ⟨98, _⟩ => ⟨S500000x1, .f32⟩
  | .hbm, ⟨99, _⟩ => ⟨S500000, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x128, .f32⟩
  | .local _ .vmem, ⟨14, _⟩ => ⟨S64x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S128x1, .f32⟩
  | .local _ .vmem, ⟨26, _⟩ => ⟨S1x1, .f32⟩
  | .local _ .vmem, ⟨27, _⟩ => ⟨S10000x1, .f32⟩
  | .local _ .vmem, ⟨28, _⟩ => ⟨S10000x1, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_c_5 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_6 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_7 : Ref sig .tc := ⟨.hbm, 57, rfl⟩
abbrev main_v28 : Ref sig .tc := ⟨.hbm, 58, rfl⟩
abbrev main_cst_8 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_9 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_10 : Ref sig .tc := ⟨.hbm, 72, rfl⟩
abbrev main_v40 : Ref sig .tc := ⟨.hbm, 73, rfl⟩
abbrev main_v41 : Ref sig .tc := ⟨.hbm, 74, rfl⟩
abbrev main_c_11 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_12 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_13 : Ref sig .tc := ⟨.hbm, 85, rfl⟩
abbrev main_v50 : Ref sig .tc := ⟨.hbm, 86, rfl⟩
abbrev main_cst_14 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_15 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S500000x64 : S_.BroadcastsInDim S500000x64 (![] : Fin 0 → Fin S500000x64.rank)
  bcast_S_S1000000x1 : S_.BroadcastsInDim S1000000x1 (![] : Fin 0 → Fin S1000000x1.rank)
  bcast_S_S500000x1 : S_.BroadcastsInDim S500000x1 (![] : Fin 0 → Fin S500000x1.rank)
  bcast_S500000x1_S500000x64_0_1 : S500000x1.BroadcastsInDim S500000x64 (![0, 1] : Fin 2 → Fin S500000x64.rank)
  bcast_S_S100000x64 : S_.BroadcastsInDim S100000x64 (![] : Fin 0 → Fin S100000x64.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S500000x128 : S_.BroadcastsInDim S500000x128 (![] : Fin 0 → Fin S500000x128.rank)
  bcast_S500000x1_S500000x128_0_1 : S500000x1.BroadcastsInDim S500000x128 (![0, 1] : Fin 2 → Fin S500000x128.rank)
  shapeCasts_S1_S1x1 : S1.ShapeCasts S1x1
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S500000x1_S500000 : S500000x1.ShapeCasts S500000
  gather_S100000x64_S1000000x1_S1000000x64_1_0_n_n_0_1_164_wf : GatherDims.WF S100000x64 S1000000x1 S1000000x64 [1] [0] [] [0] [] 1 ![1, 64]
  scatter_S500000x64_S1000000x1_S1000000x64_1_0_0_1_wf : ScatterDims.WF S500000x64 S1000000x1 S1000000x64 [1] [0] [0] 1
  scatter_S500000x1_S1000000x1_S1000000x1_1_0_0_1_wf : ScatterDims.WF S500000x1 S1000000x1 S1000000x1 [1] [0] [0] 1
  gather_S500000x64_S1000000x1_S1000000x64_1_0_n_n_0_1_164_wf : GatherDims.WF S500000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  dot_S10000x64_S64x128_S10000x128_1_0_0_1_n_n_wf : DotDims.WF S10000x64 S64x128 S10000x128 [1] [0] [0] [1] [] []
  gather_S100000x128_S1000000x1_S1000000x128_1_0_n_n_0_1_1128_wf : GatherDims.WF S100000x128 S1000000x1 S1000000x128 [1] [0] [] [0] [] 1 ![1, 128]
  scatter_S500000x128_S1000000x1_S1000000x128_1_0_0_1_wf : ScatterDims.WF S500000x128 S1000000x1 S1000000x128 [1] [0] [0] 1
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S500000x64.size a
  hwx0_0 : ∀ i : grid0.Coords, EltTy.bits .f32 = 32 ∨ (Rect.block (s := S500000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S500000x64.size a
  hwx0_1 : ∀ i : grid0.Coords, EltTy.bits .f32 = 32 ∨ (Rect.block (s := S500000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S500000x128.size a
  hwx0_5 : ∀ i : grid0.Coords, EltTy.bits .f32 = 32 ∨ (Rect.block (s := S500000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S500000x128.size a
  hwx2_0 : ∀ i : grid2.Coords, EltTy.bits .f32 = 32 ∨ (Rect.block (s := S500000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S500000x128.size a
  hwx2_1 : ∀ i : grid2.Coords, EltTy.bits .f32 = 32 ∨ (Rect.block (s := S500000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x1.size a ≤ S500000x1.size a
  hwx2_7 : ∀ i : grid2.Coords, EltTy.bits .f32 = 32 ∨ (Rect.block (s := S500000x1) S10000x1.size (cc2_transform_7 i) (hinb2_7 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S500000x64_S1000000x1_S1000000x64_1_0_0_1 : ScatterDims S500000x64 S1000000x1 S1000000x64 where
  updateWindowDims := [1]
  insertedWindowDims := [0]
  scatterDimsToOperandDims := [0]
  indexVectorDim := 1
  wf := scatter_S500000x64_S1000000x1_S1000000x64_1_0_0_1_wf
def scatter_S500000x1_S1000000x1_S1000000x1_1_0_0_1 : ScatterDims S500000x1 S1000000x1 S1000000x1 where
  updateWindowDims := [1]
  insertedWindowDims := [0]
  scatterDimsToOperandDims := [0]
  indexVectorDim := 1
  wf := scatter_S500000x1_S1000000x1_S1000000x1_1_0_0_1_wf
def gather_S500000x64_S1000000x1_S1000000x64_1_0_n_n_0_1_164 : GatherDims S500000x64 S1000000x1 S1000000x64 where
  offsetDims := [1]
  collapsedSliceDims := [0]
  operandBatchingDims := []
  startIndicesBatchingDims := []
  startIndexMap := [0]
  indexVectorDim := 1
  sliceSizes := ![1, 64]
  wf := gather_S500000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S500000x128_S1000000x1_S1000000x128_1_0_0_1 : ScatterDims S500000x128 S1000000x1 S1000000x128 where
  updateWindowDims := [1]
  insertedWindowDims := [0]
  scatterDimsToOperandDims := [0]
  indexVectorDim := 1
  wf := scatter_S500000x128_S1000000x1_S1000000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_v17) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg18) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60) S10000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S500000x64 : Shape := ⟨2, ![500000, 64]⟩
abbrev S100000x64 : Shape := ⟨2, ![100000, 64]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S1000000x1 : Shape := ⟨2, ![1000000, 1]⟩
abbrev S1000000x64 : Shape := ⟨2, ![1000000, 64]⟩
abbrev S500000x1 : Shape := ⟨2, ![500000, 1]⟩
abbrev S500000x128 : Shape := ⟨2, ![500000, 128]⟩
abbrev S1x128 : Shape := ⟨2, ![1, 128]⟩
abbrev S100000x1 : Shape := ⟨2, ![100000, 1]⟩
abbrev S100000x128 : Shape := ⟨2, ![100000, 128]⟩
abbrev S1000000x128 : Shape := ⟨2, ![1000000, 128]⟩
abbrev S1x1 : Shape := ⟨2, ![1, 1]⟩
abbrev S500000 : Shape := ⟨1, ![500000]⟩

abbrev nBuf : Space → Nat
  | .hbm => 121
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S100000x64, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S64x128, .f32⟩
  | .hbm, ⟨7, _⟩ => ⟨S64x128, .f32⟩
  | .hbm, ⟨8, _⟩ => ⟨S128, .f32⟩
  | .hbm, ⟨9, _⟩ => ⟨S64x128, .f32⟩
  | .hbm, ⟨10, _⟩ => ⟨S64x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128x128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S_, .f32⟩
  | .hbm, ⟨30, _⟩ => ⟨S500000x64, .f32⟩
  | .hbm, ⟨31, _⟩ => ⟨S1000000x1, .i32⟩
  | .hbm, ⟨32, _⟩ => ⟨S500000x64, .f32⟩
  | .hbm, ⟨33, _⟩ => ⟨S_, .f32⟩
  | .hbm, ⟨34, _⟩ => ⟨S1000000x1, .f32⟩
  | .hbm, ⟨35, _⟩ => ⟨S_, .f32⟩
  | .hbm, ⟨36, _⟩ => ⟨S500000x1, .f32⟩
  | .hbm, ⟨37, _⟩ => ⟨S1000000x1, .i32⟩
  | .hbm, ⟨38, _⟩ => ⟨S500000x1, .f32⟩
  | .hbm, ⟨39, _⟩ => ⟨S_, .f32⟩
  | .hbm, ⟨40, _⟩ => ⟨S500000x1, .f32⟩
  | .hbm, ⟨41, _⟩ => ⟨S500000x1, .f32⟩
  | .hbm, ⟨42, _⟩ => ⟨S500000x64, .f32⟩
  | .hbm, ⟨43, _⟩ => ⟨S500000x64, .f32⟩
  | .hbm, ⟨44, _⟩ => ⟨S500000x128, .f32⟩
  | .hbm, ⟨45, _⟩ => ⟨S1x128, .f32⟩
  | .hbm, ⟨46, _⟩ => ⟨S500000x128, .f32⟩
  | .hbm, ⟨47, _⟩ => ⟨S500000x128, .f32⟩
  | .hbm, ⟨48, _⟩ => ⟨S500000x128, .f32⟩
  | .hbm, ⟨49, _⟩ => ⟨S500000x128, .f32⟩
  | .hbm, ⟨50, _⟩ => ⟨S_, .f32⟩
  | .hbm, ⟨51, _⟩ => ⟨S500000x128, .f32⟩
  | .hbm, ⟨52, _⟩ => ⟨S500000x128, .f32⟩
  | .hbm, ⟨53, _⟩ => ⟨S_, .i32⟩
  | .hbm, ⟨54, _⟩ => ⟨S1000000, .i32⟩
  | .hbm, ⟨55, _⟩ => ⟨S1000000, .i1⟩
  | .hbm, ⟨56, _⟩ => ⟨S_, .i32⟩
  | .hbm, ⟨57, _⟩ => ⟨S1000000, .i32⟩
  | .hbm, ⟨58, _⟩ => ⟨S1000000, .i32⟩
  | .hbm, ⟨59, _⟩ => ⟨S1000000, .i32⟩
  | .hbm, ⟨60, _⟩ => ⟨S1000000x1, .i32⟩
  | .hbm, ⟨61, _⟩ => ⟨S1000000x64, .f32⟩
  | .hbm, ⟨62, _⟩ => ⟨S_, .f32⟩
  | .hbm, ⟨63, _⟩ => ⟨S100000x64, .f32⟩
  | .hbm, ⟨64, _⟩ => ⟨S1000000x1, .i32⟩
  | .hbm, ⟨65, _⟩ => ⟨S100000x64, .f32⟩
  | .hbm, ⟨66, _⟩ => ⟨S_, .f32⟩
  | .hbm, ⟨67, _⟩ => ⟨S1000000x1, .f32⟩
  | .hbm, ⟨68, _⟩ => ⟨S_, .f32⟩
  | .hbm, ⟨69, _⟩ => ⟨S100000x1, .f32⟩
  | .hbm, ⟨70, _⟩ => ⟨S1000000x1, .i32⟩
  | .hbm, ⟨71, _⟩ => ⟨S100000x1, .f32⟩
  | .hbm, ⟨72, _⟩ => ⟨S_, .f32⟩
  | .hbm, ⟨73, _⟩ => ⟨S100000x1, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S_, .i32⟩
  | .hbm, ⟨87, _⟩ => ⟨S1000000, .i32⟩
  | .hbm, ⟨88, _⟩ => ⟨S1000000, .i1⟩
  | .hbm, ⟨89, _⟩ => ⟨S_, .i32⟩
  | .hbm, ⟨90, _⟩ => ⟨S1000000, .i32⟩
  | .hbm, ⟨91, _⟩ => ⟨S1000000, .i32⟩
  | .hbm, ⟨92, _⟩ => ⟨S1000000, .i32⟩
  | .hbm, ⟨93, _⟩ => ⟨S1000000x1, .i32⟩
  | .hbm, ⟨94, _⟩ => ⟨S1000000x128, .f32⟩
  | .hbm, ⟨95, _⟩ => ⟨S_, .f32⟩
  | .hbm, ⟨96, _⟩ => ⟨S500000x128, .f32⟩
  | .hbm, ⟨97, _⟩ => ⟨S1000000x1, .i32⟩
  | .hbm, ⟨98, _⟩ => ⟨S500000x128, .f32⟩
  | .hbm, ⟨99, _⟩ => ⟨S_, .f32⟩
  | .hbm, ⟨100, _⟩ => ⟨S1000000x1, .f32⟩
  | .hbm, ⟨101, _⟩ => ⟨S_, .f32⟩
  | .hbm, ⟨102, _⟩ => ⟨S500000x1, .f32⟩
  | .hbm, ⟨103, _⟩ => ⟨S1000000x1, .i32⟩
  | .hbm, ⟨104, _⟩ => ⟨S500000x1, .f32⟩
  | .hbm, ⟨105, _⟩ => ⟨S_, .f32⟩
  | .hbm, ⟨106, _⟩ => ⟨S500000x1, .f32⟩
  | .hbm, ⟨107, _⟩ => ⟨S500000x1, .f32⟩
  | .hbm, ⟨108, _⟩ => ⟨S500000x128, .f32⟩
  | .hbm, ⟨109, _⟩ => ⟨S500000x128, .f32⟩
  | .hbm, ⟨110, _⟩ => ⟨S500000x128, .f32⟩
  | .hbm, ⟨111, _⟩ => ⟨S1x128, .f32⟩
  | .hbm, ⟨112, _⟩ => ⟨S500000x128, .f32⟩
  | .hbm, ⟨113, _⟩ => ⟨S500000x128, .f32⟩
  | .hbm, ⟨114, _⟩ => ⟨S500000x128, .f32⟩
  | .hbm, ⟨115, _⟩ => ⟨S500000x128, .f32⟩
  | .hbm, ⟨116, _⟩ => ⟨S500000x1, .f32⟩
  | .hbm, ⟨117, _⟩ => ⟨S1x1, .f32⟩
  | .hbm, ⟨118, _⟩ => ⟨S500000x1, .f32⟩
  | .hbm, ⟨119, _⟩ => ⟨S500000x1, .f32⟩
  | .hbm, ⟨120, _⟩ => ⟨S500000, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_call0_cst : Ref sig .tc := ⟨.hbm, 50, rfl⟩
abbrev main_call0_v0 : Ref sig .tc := ⟨.hbm, 51, rfl⟩
abbrev main_v24 : Ref sig .tc := ⟨.hbm, 52, rfl⟩
abbrev main_c_4 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_6 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_7 : Ref sig .tc := ⟨.hbm, 66, rfl⟩
abbrev main_v35 : Ref sig .tc := ⟨.hbm, 67, rfl⟩
abbrev main_cst_8 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_9 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_call1_cst : Ref sig .tc := ⟨.hbm, 83, rfl⟩
abbrev main_call1_v0 : Ref sig .tc := ⟨.hbm, 84, rfl⟩
abbrev main_v49 : Ref sig .tc := ⟨.hbm, 85, rfl⟩
abbrev main_c_10 : Ref sig .tc := ⟨.hbm, 86, rfl⟩
abbrev main_v50 : Ref sig .tc := ⟨.hbm, 87, rfl⟩
abbrev main_v51 : Ref sig .tc := ⟨.hbm, 88, rfl⟩
abbrev main_c_11 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_12 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_13 : Ref sig .tc := ⟨.hbm, 99, rfl⟩
abbrev main_v60 : Ref sig .tc := ⟨.hbm, 100, rfl⟩
abbrev main_cst_14 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_15 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S500000x64 : S_.BroadcastsInDim S500000x64 (![] : Fin 0 → Fin S500000x64.rank)
  bcast_S_S1000000x1 : S_.BroadcastsInDim S1000000x1 (![] : Fin 0 → Fin S1000000x1.rank)
  bcast_S_S500000x1 : S_.BroadcastsInDim S500000x1 (![] : Fin 0 → Fin S500000x1.rank)
  bcast_S500000x1_S500000x64_0_1 : S500000x1.BroadcastsInDim S500000x64 (![0, 1] : Fin 2 → Fin S500000x64.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S100000x64 : S_.BroadcastsInDim S100000x64 (![] : Fin 0 → Fin S100000x64.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S500000x1_S500000x128_0_1 : S500000x1.BroadcastsInDim S500000x128 (![0, 1] : Fin 2 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S100000x64_S1000000x1_S1000000x64_1_0_n_n_0_1_164_wf : GatherDims.WF S100000x64 S1000000x1 S1000000x64 [1] [0] [] [0] [] 1 ![1, 64]
  scatter_S500000x64_S1000000x1_S1000000x64_1_0_0_1_wf : ScatterDims.WF S500000x64 S1000000x1 S1000000x64 [1] [0] [0] 1
  scatter_S500000x1_S1000000x1_S1000000x1_1_0_0_1_wf : ScatterDims.WF S500000x1 S1000000x1 S1000000x1 [1] [0] [0] 1
  dot_S500000x64_S64x128_S500000x128_1_0_0_1_n_n_wf : DotDims.WF S500000x64 S64x128 S500000x128 [1] [0] [0] [1] [] []
  gather_S500000x64_S1000000x1_S1000000x64_1_0_n_n_0_1_164_wf : GatherDims.WF S500000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  dot_S100000x64_S64x128_S100000x128_1_0_0_1_n_n_wf : DotDims.WF S100000x64 S64x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S500000x128_S1000000x1_S1000000x128_1_0_0_1_wf : ScatterDims.WF S500000x128 S1000000x1 S1000000x128 [1] [0] [0] 1
  dot_S500000x128_S128x128_S500000x128_1_0_0_1_n_n_wf : DotDims.WF S500000x128 S128x128 S500000x128 [1] [0] [0] [1] [] []
  dot_S500000x128_S128x1_S500000x1_1_0_0_1_n_n_wf : DotDims.WF S500000x128 S128x1 S500000x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S500000x64_S1000000x1_S1000000x64_1_0_0_1 : ScatterDims S500000x64 S1000000x1 S1000000x64 where
  updateWindowDims := [1]
  insertedWindowDims := [0]
  scatterDimsToOperandDims := [0]
  indexVectorDim := 1
  wf := scatter_S500000x64_S1000000x1_S1000000x64_1_0_0_1_wf
def scatter_S500000x1_S1000000x1_S1000000x1_1_0_0_1 : ScatterDims S500000x1 S1000000x1 S1000000x1 where
  updateWindowDims := [1]
  insertedWindowDims := [0]
  scatterDimsToOperandDims := [0]
  indexVectorDim := 1
  wf := scatter_S500000x1_S1000000x1_S1000000x1_1_0_0_1_wf
def dot_S500000x64_S64x128_S500000x128_1_0_0_1_n_n : DotDims S500000x64 S64x128 S500000x128 where
  lhsContracting := [1]
  rhsContracting := [0]
  lhsNonContracting := [0]
  rhsNonContracting := [1]
  lhsBatch := []
  rhsBatch := []
  wf := dot_S500000x64_S64x128_S500000x128_1_0_0_1_n_n_wf
def gather_S500000x64_S1000000x1_S1000000x64_1_0_n_n_0_1_164 : GatherDims S500000x64 S1000000x1 S1000000x64 where
  offsetDims := [1]
  collapsedSliceDims := [0]
  operandBatchingDims := []
  startIndicesBatchingDims := []
  startIndexMap := [0]
  indexVectorDim := 1
  sliceSizes := ![1, 64]
  wf := gather_S500000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S500000x128_S1000000x1_S1000000x128_1_0_0_1 : ScatterDims S500000x128 S1000000x1 S1000000x128 where
  updateWindowDims := [1]
  insertedWindowDims := [0]
  scatterDimsToOperandDims := [0]
  indexVectorDim := 1
  wf := scatter_S500000x128_S1000000x1_S1000000x128_1_0_0_1_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.LibLayerLaws.lean ====
/-
  A two-layer mean-aggregation network on the extended reals, read entry by entry.

  One layer sends node features `x`, neighbour sums `s` and a per-node scale to
      elu ( (∑ₖ mean(p,k) · Wl(k,q)) + b(q) + ∑ₖ x(p,k) · Wr(k,q) ),       elu y = y for y > 0, eʸ − 1 otherwise,
  where the mean is written either as the quotient `s(p,k) / c(p)` or as the product `s(p,k) · (1 / c(p))`.
  The two spellings agree whenever `c(p) ≠ 0`: on the extended reals a quotient by a non-zero `c` IS the product with
  `c⁻¹`, and `1 / c = c⁻¹`.  Nothing here distributes a product over a sum, so no entry needs to be finite.

  Also here: the exponential-linear unit in the two spellings a program writes it in, and a matrix product
  `[a, k] × [k, b]` contracting the inner axis, read at `(p, q)` as a sum over `Fin k`.
-/
import Idealize.ShloMosaic.Lib.ValueIdx
import Idealize.ShloMosaic.PureOps.Ideal.Laws
import Idealize.ShloMosaic.PureOps.IdealRules

noncomputable section

open scoped BigOperators

namespace Cert.LayerLaws

open Idealize.ShloMosaic Idealize.ShloMosaic.ValueIdx

/-! ## The exponential-linear unit -/

/-- `elu y = y` above zero, `eʸ − 1` at and below it. -/
def elu1 (y : EReal) : EReal := if 0 < y then y else Ideal.exp y - 1

/-- The binary32 word of `1.0` denotes `1`. -/
theorem one_f32 : Ideal.ofBits .f32 0x3F800000#32 = 1 := IdealRules.sign_bit.ideal_onePat .f32

/-- "select (y > 0) y (exp (min y 0) − 1)" is `elu`: off the positive side `min y 0 = y`. -/
theorem elu_min_form (y : EReal) :
    Scalar.select (Ideal.cmp .ogt y (Ideal.ofBits .f32 0x00000000#32)) y
        (Ideal.exp (min y (Ideal.ofBits .f32 0x00000000#32)) - Ideal.ofBits .f32 0x3F800000#32) = elu1 y := by
  rw [Ideal.ofBits_zero_f32, one_f32]
  unfold elu1 Scalar.select Ideal.cmp
  by_cases h : 0 < y
  · simp [h]
  · have hy : y ≤ 0 := not_lt.mp h
    simp [h, min_eq_left hy]

/-- "select (y > 0) y (1 · expm1 (select (y > 0) 0 y))" is `elu` too: `expm1 z = eᶻ − 1` and `1 · z = z`. -/
theorem elu_expm1_form (y : EReal) :
    Scalar.select (Ideal.cmp .ogt y (Ideal.ofBits .f32 0x00000000#32)) y
        (Ideal.ofBits .f32 0x3F800000#32 *
          (Ideal.exp (Scalar.select (Ideal.cmp .ogt y (Ideal.ofBits .f32 0x00000000#32)) (Ideal.ofBits .f32 0x00000000#32) y) - 1))
      = elu1 y := by
  rw [Ideal.ofBits_zero_f32, one_f32]
  unfold elu1 Scalar.select Ideal.cmp
  by_cases h : 0 < y
  · simp [h]
  · simp [h]

/-! ## Quotient and reciprocal -/

/-- A product with the reciprocal `1 / c` of a non-zero `c` is the quotient by `c`. -/
theorem mul_one_div (a c : EReal) (hc : c ≠ 0) :
    a * Ideal.div (Ideal.ofBits .f32 0x3F800000#32) c = Ideal.div a c := by
  rw [one_f32]
  unfold Ideal.div
  rw [if_neg hc, if_neg hc, one_mul]

/-- A maximum with `1.0` is not zero. -/
theorem max_one_ne_zero (a : EReal) : max a (Ideal.ofBits .f32 0x3F800000#32) ≠ 0 := by
  rw [one_f32]
  exact ne_of_gt (lt_of_lt_of_le zero_lt_one (le_max_right a 1))

/-! ## The layer, entry by entry -/

/-- Arrays of extended reals of shape `[n, k]`. -/
abbrev Mat (n k : ℕ) := (⟨2, ![n, k]⟩ : Shape).Idx → EReal

variable {n : ℕ}

/-- A layer before its activation at `(p, q)`, the mean written as a product with a per-row scale `[n, 1]`
    and the bias as a row `[1, 64]`. -/
def preMul (x s : Mat n 64) (inv : Mat n 1) (Wl : Mat 64 64) (b : Mat 1 64) (Wr : Mat 64 64) (p : Fin n) (q : Fin 64) : EReal :=
  (∑ k : Fin 64, (s (ix2 p k) * inv (ix2 p (0 : Fin 1))) * Wl (ix2 k q)) + b (ix2 (0 : Fin 1) q)
    + ∑ k : Fin 64, x (ix2 p k) * Wr (ix2 k q)

/-- The layer with that spelling, as an array. -/
def layerMul (x s : Mat n 64) (inv : Mat n 1) (Wl : Mat 64 64) (b : Mat 1 64) (Wr : Mat 64 64) : Mat n 64 :=
  fun i => elu1 (preMul x s inv Wl b Wr ⟨(i 0).val, idx2_lt0 i⟩ ⟨(i 1).val, idx2_lt1 i⟩)

theorem layerMul_apply (x s : Mat n 64) (inv : Mat n 1) (Wl : Mat 64 64) (b : Mat 1 64) (Wr : Mat 64 64) (p : Fin n) (q : Fin 64) :
    layerMul x s inv Wl b Wr (ix2 p q) = elu1 (preMul x s inv Wl b Wr p q) := rfl

/-- A final linear map of an `[n, 64]` array at `(p, q)`, its bias a row `[1, 64]`. -/
def linRow (h : Mat n 64) (W : Mat 64 64) (b : Mat 1 64) : Mat n 64 :=
  fun i => (∑ k : Fin 64, h (ix2 (⟨(i 0).val, idx2_lt0 i⟩ : Fin n) k) * W (ix2 k (⟨(i 1).val, idx2_lt1 i⟩ : Fin 64)))
    + b (ix2 (0 : Fin 1) (⟨(i 1).val, idx2_lt1 i⟩ : Fin 64))

theorem linRow_apply (h : Mat n 64) (W : Mat 64 64) (b : Mat 1 64) (p : Fin n) (q : Fin 64) :
    linRow h W b (ix2 p q) = (∑ k : Fin 64, h (ix2 p k) * W (ix2 k q)) + b (ix2 (0 : Fin 1) q) := rfl

/-- A layer before its activation at `(p, q)`, the mean written as a quotient by a per-node count `[n]`
    and the bias as a vector `[64]`. -/
def preDiv (x s : Mat n 64) (c : (⟨1, ![n]⟩ : Shape).Idx → EReal) (Wl : Mat 64 64) (b : (⟨1, ![64]⟩ : Shape).Idx → EReal)
    (Wr : Mat 64 64) (p : Fin n) (q : Fin 64) : EReal :=
  (∑ k : Fin 64, Ideal.div (s (ix2 p k)) (c (ix1 p)) * Wl (ix2 k q)) + b (ix1 q)
    + ∑ k : Fin 64, x (ix2 p k) * Wr (ix2 k q)

/-- The two spellings of a layer agree when the scale is the reciprocal of a count that is nowhere zero and the
    bias row is the bias vector. -/
theorem preMul_eq_preDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64) (p : Fin n) (q : Fin 64)
    (hinv : inv (ix2 p (0 : Fin 1)) = Ideal.div (Ideal.ofBits .f32 0x3F800000#32) (c (ix1 p))) (hc : c (ix1 p) ≠ 0)
    (hb : b2 (ix2 (0 : Fin 1) q) = b (ix1 q)) :
    preMul x s inv Wl b2 Wr p q = preDiv x s c Wl b Wr p q := by
  unfold preMul preDiv
  rw [hinv, hb]
  refine congrArg (· + _) (congrArg (· + _) (Finset.sum_congr rfl fun k _ => ?_))
  rw [mul_one_div _ _ hc]

/-! ## A matrix product contracting the inner axis -/

variable {a k b : ℕ} {φ₁ φ₂ : FTy}

/-- The contraction sum of `[a, k] × [k, b]` at entry `(p, q)`, re-indexed by the contracted coordinate — from four
    facts about the dimension record's operand indices, which each use proves by evaluating its record. -/
theorem sum_inner (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

end Cert.LayerLaws

end
-- ==== Proof.Net.lean ====
/-
  A two-layer mean-aggregation network on a bipartite graph, read entry by entry on the extended reals.

  One convolution takes, for every node `p`, the mean `A p` of its neighbours' features and its own features `X p` to
      conv(p, q) = (∑ₖ A(p,k) · Wl(k,q)) + β(q) + ∑ₖ X(p,k) · Wr(k,q).
  The first layer clamps this below at zero (`hidden`); the second is followed by a linear read-out to one number per
  node, `logit(p) = (∑ⱼ conv(p, j) · Wc(j)) + γ`.

  Entry `(p, q)` depends on row `p` of `A` and of `X` only (and on the whole weights), so the layer of a block of rows is
  the block of rows of the layer: `conv_rows`.  Nothing here moves a factor across a sum, so no entry has to be finite.
-/
import Idealize.ShloMosaic.Lib.ValueIdx
import Idealize.ShloMosaic.PureOps.Ideal.Laws

noncomputable section

open scoped BigOperators

namespace Cert.Sage

open Idealize.ShloMosaic Idealize.ShloMosaic.ValueIdx

/-- Arrays of extended reals of shape `[n, k]`. -/
abbrev Mat (n k : ℕ) := (⟨2, ![n, k]⟩ : Shape).Idx → EReal

variable {n d h : ℕ}

/-- One convolution before its activation, at node `p` and output feature `q`: the aggregated neighbours through `Wl`,
    plus the bias, plus the node's own features through `Wr` — in this order of addition. -/
def conv (A X : Mat n d) (Wl Wr : Mat d h) (β : Fin h → EReal) (p : Fin n) (q : Fin h) : EReal :=
  (∑ k : Fin d, A (ix2 p k) * Wl (ix2 k q)) + β q + ∑ k : Fin d, X (ix2 p k) * Wr (ix2 k q)

/-- The first layer as an array: the convolution clamped below at zero (the zero written as the binary32 word the
    programs carry). -/
def hidden (A X : Mat n d) (Wl Wr : Mat d h) (β : Fin h → EReal) : Mat n h :=
  fun i => max (conv A X Wl Wr β ⟨(i 0).val, idx2_lt0 i⟩ ⟨(i 1).val, idx2_lt1 i⟩) (Ideal.ofBits .f32 0x00000000#32)

theorem hidden_apply (A X : Mat n d) (Wl Wr : Mat d h) (β : Fin h → EReal) (p : Fin n) (q : Fin h) :
    hidden A X Wl Wr β (ix2 p q) = max (conv A X Wl Wr β p q) (Ideal.ofBits .f32 0x00000000#32) := rfl

/-- The second layer followed by the read-out, as a column `[n, 1]`. -/
def logit (A X : Mat n d) (Wl Wr : Mat d h) (β : Fin h → EReal) (Wc : Mat h 1) (γ : EReal) : Mat n 1 :=
  fun i => (∑ j : Fin h, conv A X Wl Wr β ⟨(i 0).val, idx2_lt0 i⟩ j * Wc (ix2 j (0 : Fin 1))) + γ

theorem logit_apply (A X : Mat n d) (Wl Wr : Mat d h) (β : Fin h → EReal) (Wc : Mat h 1) (γ : EReal) (p : Fin n) (u : Fin 1) :
    logit A X Wl Wr β Wc γ (ix2 p u) = (∑ j : Fin h, conv A X Wl Wr β p j * Wc (ix2 j (0 : Fin 1))) + γ := rfl

/-! ## Rows -/

variable {N : ℕ}

/-- The convolution at row `r` of a block is the convolution of the whole arrays at the row `e r` the block's row `r`
    was cut from. -/
theorem conv_rows (e : Fin n → Fin N) (a x : Mat n d) (A X : Mat N d) (Wl Wr : Mat d h) (β : Fin h → EReal)
    (ha : ∀ r k, a (ix2 r k) = A (ix2 (e r) k)) (hx : ∀ r k, x (ix2 r k) = X (ix2 (e r) k)) (r : Fin n) (q : Fin h) :
    conv a x Wl Wr β r q = conv A X Wl Wr β (e r) q := by
  unfold conv
  exact congrArg₂ (· + ·) (congrArg (· + β q) (Finset.sum_congr rfl fun k _ => by rw [ha r k]))
    (Finset.sum_congr rfl fun k _ => by rw [hx r k])

/-- The first layer of a block of rows is the block of rows of the first layer. -/
theorem hidden_rows (e : Fin n → Fin N) (a x : Mat n d) (A X : Mat N d) (Wl Wr : Mat d h) (β : Fin h → EReal)
    (ha : ∀ r k, a (ix2 r k) = A (ix2 (e r) k)) (hx : ∀ r k, x (ix2 r k) = X (ix2 (e r) k)) (r : Fin n) (q : Fin h) :
    hidden a x Wl Wr β (ix2 r q) = hidden A X Wl Wr β (ix2 (e r) q) := by
  rw [hidden_apply, hidden_apply, conv_rows e a x A X Wl Wr β ha hx r q]

/-- The read-out of a block of rows is the block of rows of the read-out. -/
theorem logit_rows (e : Fin n → Fin N) (a x : Mat n d) (A X : Mat N d) (Wl Wr : Mat d h) (β : Fin h → EReal)
    (Wc : Mat h 1) (γ : EReal)
    (ha : ∀ r k, a (ix2 r k) = A (ix2 (e r) k)) (hx : ∀ r k, x (ix2 r k) = X (ix2 (e r) k)) (r : Fin n) (u v : Fin 1) :
    logit a x Wl Wr β Wc γ (ix2 r u) = logit A X Wl Wr β Wc γ (ix2 (e r) v) := by
  rw [logit_apply, logit_apply]
  exact congrArg (· + γ) (Finset.sum_congr rfl fun j _ => by rw [conv_rows e a x A X Wl Wr β ha hx r j])

/-- The same for a block that carries its own copies of the weights and of the bias. -/
theorem hidden_block (e : Fin n → Fin N) (a x : Mat n d) (A X : Mat N d) (wl wr Wl Wr : Mat d h) (β B : Fin h → EReal)
    (ha : ∀ r k, a (ix2 r k) = A (ix2 (e r) k)) (hx : ∀ r k, x (ix2 r k) = X (ix2 (e r) k))
    (hwl : wl = Wl) (hwr : wr = Wr) (hβ : β = B) (r : Fin n) (q : Fin h) :
    hidden a x wl wr β (ix2 r q) = hidden A X Wl Wr B (ix2 (e r) q) := by
  subst hwl hwr hβ
  exact hidden_rows e a x A X wl wr β ha hx r q

/-- The read-out of a block that carries its own copies of the weights, of the bias and of the read-out's operands. -/
theorem logit_block (e : Fin n → Fin N) (a x : Mat n d) (A X : Mat N d) (wl wr Wl Wr : Mat d h) (β B : Fin h → EReal)
    (wc Wc : Mat h 1) (γ Γ : EReal)
    (ha : ∀ r k, a (ix2 r k) = A (ix2 (e r) k)) (hx : ∀ r k, x (ix2 r k) = X (ix2 (e r) k))
    (hwl : wl = Wl) (hwr : wr = Wr) (hβ : β = B) (hwc : wc = Wc) (hγ : γ = Γ) (r : Fin n) (u v : Fin 1) :
    logit a x wl wr β wc γ (ix2 r u) = logit A X Wl Wr B Wc Γ (ix2 (e r) v) := by
  subst hwl hwr hβ hwc hγ
  exact logit_rows e a x A X wl wr β wc γ ha hx r u v

end Cert.Sage

end
-- ==== Proof.Payload.lean ====
/-
  The three kernel bodies, read at one entry of the block they store.

  Each body loads a block of 10000 rows of the aggregated neighbours and of the nodes' own features, the whole weight
  matrices and the bias as a row `[1, h]`, rounds the matrix operands on the way into the products (the identity on the
  extended reals), and stores one block of rows of the layer.  A product into a zero accumulator is, at `(r, q)`, the
  sum over the inner axis of `lhs(r, k) · rhs(k, q)`; the bias row broadcast down the rows reads `b(0, q)`.  So the
  first-layer body stores `hidden` of its blocks, and the last body `logit` of its blocks — stated here for blocks that
  are the rows `e r` of whole arrays, which is how the launch feeds them.
-/
import proofs.«108514_j67714454388971_1_alg».proof.Proof.Gen.KernelIdeal.Skeleton
import proofs.«108514_j67714454388971_1_alg».proof.Proof.LibLayerLaws
import proofs.«108514_j67714454388971_1_alg».proof.Proof.Net
import Idealize.ShloMosaic.Lib.ValueLayout
import Idealize.ShloMosaic.Lib.Pipeline.Value

noncomputable section

open scoped BigOperators

namespace Cert.Sage.Body

open Idealize.ShloMosaic Idealize.ShloMosaic.ValueIdx Cert.KernelIdeal Cert.KernelIdeal.Gen Cert.Sage Cert.LayerLaws

/-! ### The product record `dot_S10000x64_S64x128_S10000x128_1_0_0_1_n_n`: operand indices at an output index and a contraction index -/

theorem d64_l0 (i) (q : dot_S10000x64_S64x128_S10000x128_1_0_0_1_n_n.contr.Idx) : (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem d64_l1 (i) (q : dot_S10000x64_S64x128_S10000x128_1_0_0_1_n_n.contr.Idx) : (dot_S10000x64_S64x128_S10000x128_1_0_0_1_n_n.lhsIdx i q 1).val = (q ⟨0, by decide⟩).val :=
  dot_S10000x64_S64x128_S10000x128_1_0_0_1_n_n.lhsIdx_val_of_single rfl i q
theorem d64_r0 (i) (q : dot_S10000x64_S64x128_S10000x128_1_0_0_1_n_n.contr.Idx) : (dot_S10000x64_S64x128_S10000x128_1_0_0_1_n_n.rhsIdx i q 0).val = (q ⟨0, by decide⟩).val :=
  dot_S10000x64_S64x128_S10000x128_1_0_0_1_n_n.rhsIdx_val_of_single rfl i q
theorem d64_r1 (i) (q : dot_S10000x64_S64x128_S10000x128_1_0_0_1_n_n.contr.Idx) : (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-! ### The product record `dot_S10000x128_S128x128_S10000x128_1_0_0_1_n_n`: operand indices at an output index and a contraction index -/

theorem d128_l0 (i) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem d128_l1 (i) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem d128_r0 (i) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem d128_r1 (i) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! ### The product record `dot_S10000x128_S128x1_S10000x1_1_0_0_1_n_n`: operand indices at an output index and a contraction index -/

theorem dcls_l0 (i) (q : dot_S10000x128_S128x1_S10000x1_1_0_0_1_n_n.contr.Idx) : (dot_S10000x128_S128x1_S10000x1_1_0_0_1_n_n.lhsIdx i q 0).val = (i 0).val := by
  unfold DotDims.lhsIdx
  rw [dif_neg (show ¬(0 : Fin S10000x128.rank) ∈ dot_S10000x128_S128x1_S10000x1_1_0_0_1_n_n.lhsBatch by decide), dif_pos (show (0 : Fin S10000x128.rank) ∈ dot_S10000x128_S128x1_S10000x1_1_0_0_1_n_n.lhsNonContracting by decide)]
  rfl
theorem dcls_l1 (i) (q : dot_S10000x128_S128x1_S10000x1_1_0_0_1_n_n.contr.Idx) : (dot_S10000x128_S128x1_S10000x1_1_0_0_1_n_n.lhsIdx i q 1).val = (q ⟨0, by decide⟩).val :=
  dot_S10000x128_S128x1_S10000x1_1_0_0_1_n_n.lhsIdx_val_of_single rfl i q
theorem dcls_r0 (i) (q : dot_S10000x128_S128x1_S10000x1_1_0_0_1_n_n.contr.Idx) : (dot_S10000x128_S128x1_S10000x1_1_0_0_1_n_n.rhsIdx i q 0).val = (q ⟨0, by decide⟩).val :=
  dot_S10000x128_S128x1_S10000x1_1_0_0_1_n_n.rhsIdx_val_of_single rfl i q
theorem dcls_r1 (i) (q : dot_S10000x128_S128x1_S10000x1_1_0_0_1_n_n.contr.Idx) : (dot_S10000x128_S128x1_S10000x1_1_0_0_1_n_n.rhsIdx i q 1).val = (i 1).val := by
  unfold DotDims.rhsIdx
  rw [dif_neg (show ¬(1 : Fin S128x1.rank) ∈ dot_S10000x128_S128x1_S10000x1_1_0_0_1_n_n.rhsBatch by decide), dif_pos (show (1 : Fin S128x1.rank) ∈ dot_S10000x128_S128x1_S10000x1_1_0_0_1_n_n.rhsNonContracting by decide)]
  rfl

/-! ## A product into the zero accumulator, at an entry -/

/-- `[10000, 64] × [64, 128]` at `(r, q)`. -/
theorem prod64 {φ₁ φ₂ : FTy} (l : FVec Ideal S10000x64 φ₁) (w : FVec Ideal S64x128 φ₂) (r : Fin 10000) (q : Fin 128) :
    FloatOps.matmul dot_S10000x64_S64x128_S10000x128_1_0_0_1_n_n none l w (constant (F := Ideal) S10000x128 .f32 0x00000000#32) (ix2 r q)
      = ∑ k : Fin 64, l (ix2 r k) * w (ix2 k q) :=
  (Ideal.matmul_constant_zero_apply dot_S10000x64_S64x128_S10000x128_1_0_0_1_n_n none l w (ix2 r q)).trans
    (sum_inner dot_S10000x64_S64x128_S10000x128_1_0_0_1_n_n rfl rfl d64_l0 d64_l1 d64_r0 d64_r1 l w r q)

/-- `[10000, 128] × [128, 128]` at `(r, q)`. -/
theorem prod128 {φ₁ φ₂ : FTy} (l : FVec Ideal S10000x128 φ₁) (w : FVec Ideal S128x128 φ₂) (r : Fin 10000) (q : Fin 128) :
    FloatOps.matmul dot_S10000x128_S128x128_S10000x128_1_0_0_1_n_n none l w (constant (F := Ideal) S10000x128 .f32 0x00000000#32) (ix2 r q)
      = ∑ k : Fin 128, l (ix2 r k) * w (ix2 k q) :=
  (Ideal.matmul_constant_zero_apply dot_S10000x128_S128x128_S10000x128_1_0_0_1_n_n none l w (ix2 r q)).trans
    (sum_inner dot_S10000x128_S128x128_S10000x128_1_0_0_1_n_n rfl rfl d128_l0 d128_l1 d128_r0 d128_r1 l w r q)

/-- `[10000, 128] × [128, 1]` at `(r, u)`. -/
theorem prodCls {φ₁ φ₂ : FTy} (l : FVec Ideal S10000x128 φ₁) (w : FVec Ideal S128x1 φ₂) (r : Fin 10000) (u : Fin 1) :
    FloatOps.matmul dot_S10000x128_S128x1_S10000x1_1_0_0_1_n_n none l w (constant (F := Ideal) S10000x1 .f32 0x00000000#32) (ix2 r u)
      = ∑ k : Fin 128, l (ix2 r k) * w (ix2 k u) :=
  (Ideal.matmul_constant_zero_apply dot_S10000x128_S128x1_S10000x1_1_0_0_1_n_n none l w (ix2 r u)).trans
    (sum_inner dot_S10000x128_S128x1_S10000x1_1_0_0_1_n_n rfl rfl dcls_l0 dcls_l1 dcls_r0 dcls_r1 l w r u)

/-! ## The first-layer body -/

/-- The first-layer body at `(r, q)` of its block, over its five loaded blocks. -/
theorem pay_hidden (x0 x1 : FVec Ideal S10000x64 .f32) (x2 x3 : FVec Ideal S64x128 .f32) (x4 : FVec Ideal S1x128 .f32)
    (r : Fin 10000) (q : Fin 128) :
    k0_pay1 (F := Ideal) x0 x1 x2 x3 x4 (ix2 r q)
      = hidden (n := 10000) (d := 64) (h := 128) x0 x1 x2 x3 (fun q => x4 (ix2 (0 : Fin 1) q)) (ix2 r q) := by
  rw [hidden_apply]
  unfold k0_pay1 conv
  rw [shapeCast_self, shapeCast_self]
  refine congrArg₂ max (congrArg₂ (· + ·) (congrArg₂ (· + ·) ?_ ?_) ?_) rfl
  · exact prod64 _ _ r q
  · exact broadcastTo_1b_ab_apply x4 broadcasts_S1x128_S10000x128 r q
  · exact prod64 _ _ r q

/-- The second launch runs the same body. -/
theorem pay_hidden' (x0 x1 : FVec Ideal S10000x64 .f32) (x2 x3 : FVec Ideal S64x128 .f32) (x4 : FVec Ideal S1x128 .f32)
    (r : Fin 10000) (q : Fin 128) :
    k1_pay1 (F := Ideal) x0 x1 x2 x3 x4 (ix2 r q)
      = hidden (n := 10000) (d := 64) (h := 128) x0 x1 x2 x3 (fun q => x4 (ix2 (0 : Fin 1) q)) (ix2 r q) :=
  pay_hidden x0 x1 x2 x3 x4 r q

/-! ## The last body: second layer and read-out -/

/-- The last body at `(r, u)` of its one-column block, over its seven loaded blocks. -/
theorem pay_logit (x0 x1 : FVec Ideal S10000x128 .f32) (x2 x3 : FVec Ideal S128x128 .f32) (x4 : FVec Ideal S1x128 .f32)
    (x5 : FVec Ideal S128x1 .f32) (x6 : FVec Ideal S1x1 .f32) (r : Fin 10000) (u : Fin 1) :
    k2_pay1 (F := Ideal) x0 x1 x2 x3 x4 x5 x6 (ix2 r u)
      = logit (n := 10000) (d := 128) (h := 128) x0 x1 x2 x3 (fun q => x4 (ix2 (0 : Fin 1) q)) x5 (x6 (ix2 (0 : Fin 1) (0 : Fin 1))) (ix2 r u) := by
  rw [logit_apply]
  unfold k2_pay1
  rw [shapeCast_self, shapeCast_self, shapeCast_self, shapeCast_self]
  have hu : u = (0 : Fin 1) := Subsingleton.elim _ _
  subst hu
  refine congrArg₂ (fun a b : EReal => a + b) ?_ ?_
  · refine (prodCls _ _ r 0).trans (Finset.sum_congr rfl fun j _ => congrArg (fun a : EReal => a * x5 (ix2 j (0 : Fin 1))) ?_)
    unfold conv
    refine congrArg₂ (fun a b : EReal => a + b) (congrArg₂ (fun a b : EReal => a + b) ?_ ?_) ?_
    · exact prod128 _ _ r j
    · exact broadcastTo_1b_ab_apply x4 broadcasts_S1x128_S10000x128 r j
    · exact prod128 _ _ r j
  · exact broadcastTo_1b_ab_apply x6 broadcasts_S1x1_S10000x1 r 0

end Cert.Sage.Body

end
-- ==== Proof.Launch0.lean ====
/-
    Launch 0: the first layer over the 500000 destination nodes, 50 blocks of 10000 rows.

  Grid point `t` is fed rows `10000·t … 10000·t + 9999` of the aggregated neighbours and of the nodes' own features, the
  whole weights and the bias row, and writes back rows `10000·t …` of the result.  Its body stores `hidden` of those blocks,
  which is rows `10000·t …` of `hidden` of the whole arrays (the layer is row-wise); the 50 blocks tile the result; so after
  the launch the result array IS `hidden` of the arrays the launch was entered with.
-/
import proofs.«108514_j67714454388971_1_alg».proof.Proof.Gen.KernelIdeal.Frame
import proofs.«108514_j67714454388971_1_alg».proof.Proof.Payload

set_option maxRecDepth 16384

noncomputable section

open scoped BigOperators

namespace Cert.Sage.Launch0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

-- the buffer contents the launch is entered from: any
variable (V : (c : Dev nD) → (b : Ref sig .tc) → Buf (Elt Ideal) ((c : Thread nD τ).loc b))

theorem hz : (![0, 0] : Fin 2 → Nat) = fun _ => 0 := funext fun a => by fin_cases a <;> rfl

/-- The row of the whole arrays that row `r` of point `t`'s blocks is. -/
def row (t : Fin cfg0.N) (r : Fin 10000) : Fin 500000 :=
  ⟨t.val * 10000 + r.val, by have hN : grid0.N = 50 := N_0; have ht : t.val < grid0.N := t.isLt; have hr := r.isLt; omega⟩

/-- The printed index maps over the grid: row-blocked windows sit at block `(t, 0)`, the whole ones at `(0, 0)`. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first layer of the arrays the launch is entered with. -/
def layer (c : Dev nD) : Mat 500000 128 :=
  hidden (n := 500000) (d := 64) (h := 128) (V c main_v17) (V c main_arg0) (V c main_arg6) (V c main_arg7)
    (fun q => V c main_v36 (ix2 (0 : Fin 1) q))

/-- What point `t` writes back is rows `10000·t …` of that layer. -/
theorem flushed_eq (c : Dev nD) (t : Fin cfg0.N) :
    (dat0 (F := Ideal) V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x128) hz, View.ld_unit_zero (S := S1x128) hz]
  obtain ⟨a0, a1, b0, b1, c0, c1, d0, d1, e0, e1, f0, f1⟩ := idx t
  funext j
  obtain ⟨r, q, rfl⟩ : ∃ (r : Fin 10000) (q : Fin 128), j = ix2 r q := ⟨j 0, j 1, eq_ix2 j⟩
  show k0_pay1 (iblk0 V c 0 t) (iblk0 V c 1 t) (iblk0 V c 2 t) (iblk0 V c 3 t) (iblk0 V c 4 t) (ix2 r q)
    = layer V c (((cfg0.win 5).blk t).view.emb (ix2 r q))
  have hemb : ((cfg0.win 5).blk t).view.emb (ix2 r q) = ix2 (row t r) q := by
    funext a; apply Fin.ext
    match a with
    | ⟨0, _⟩ => show win0_5.index t (0 : Fin 2) * 10000 + 1 * r.val = t.val * 10000 + r.val; omega
    | ⟨1, _⟩ => show win0_5.index t (1 : Fin 2) * 128 + 1 * q.val = q.val; omega
  rw [hemb]
  have ha : ∀ (r : Fin 10000) (k : Fin 64), iblk0 V c 0 t (ix2 r k) = V c main_v17 (ix2 (row t r) k) := fun r k => by
    show V c main_v17 (((cfg0.win 0).blk t).view.emb (ix2 r k)) = _
    refine congrArg (V c main_v17) (funext fun a => Fin.ext ?_)
    match a with
    | ⟨0, _⟩ => show win0_0.index t (0 : Fin 2) * 10000 + 1 * r.val = t.val * 10000 + r.val; omega
    | ⟨1, _⟩ => show win0_0.index t (1 : Fin 2) * 64 + 1 * k.val = k.val; omega
  have hx : ∀ (r : Fin 10000) (k : Fin 64), iblk0 V c 1 t (ix2 r k) = V c main_arg0 (ix2 (row t r) k) := fun r k => by
    show V c main_arg0 (((cfg0.win 1).blk t).view.emb (ix2 r k)) = _
    refine congrArg (V c main_arg0) (funext fun a => Fin.ext ?_)
    match a with
    | ⟨0, _⟩ => show win0_1.index t (0 : Fin 2) * 10000 + 1 * r.val = t.val * 10000 + r.val; omega
    | ⟨1, _⟩ => show win0_1.index t (1 : Fin 2) * 64 + 1 * k.val = k.val; omega
  have hwl : iblk0 V c 2 t = V c main_arg6 := funext fun y => by
    show V c main_arg6 (((cfg0.win 2).blk t).view.emb y) = _
    refine congrArg (V c main_arg6) (funext fun a => Fin.ext ?_)
    match a with
    | ⟨0, _⟩ => show win0_2.index t (0 : Fin 2) * 64 + 1 * (y 0).val = (y 0).val; omega
    | ⟨1, _⟩ => show win0_2.index t (1 : Fin 2) * 128 + 1 * (y 1).val = (y 1).val; omega
  have hwr : iblk0 V c 3 t = V c main_arg7 := funext fun y => by
    show V c main_arg7 (((cfg0.win 3).blk t).view.emb y) = _
    refine congrArg (V c main_arg7) (funext fun a => Fin.ext ?_)
    match a with
    | ⟨0, _⟩ => show win0_3.index t (0 : Fin 2) * 64 + 1 * (y 0).val = (y 0).val; omega
    | ⟨1, _⟩ => show win0_3.index t (1 : Fin 2) * 128 + 1 * (y 1).val = (y 1).val; omega
  have hb : iblk0 V c 4 t = V c main_v36 := funext fun y => by
    show V c main_v36 (((cfg0.win 4).blk t).view.emb y) = _
    refine congrArg (V c main_v36) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  refine (Body.pay_hidden (iblk0 V c 0 t) (iblk0 V c 1 t) (iblk0 V c 2 t) (iblk0 V c 3 t) (iblk0 V c 4 t) r q).trans ?_
  exact hidden_block (row t) (iblk0 V c 0 t) (iblk0 V c 1 t) (V c main_v17) (V c main_arg0)
    (iblk0 V c 2 t) (iblk0 V c 3 t) (V c main_arg6) (V c main_arg7)
    (fun q => iblk0 V c 4 t (ix2 (0 : Fin 1) q)) (fun q => V c main_v36 (ix2 (0 : Fin 1) q))
    ha hx hwl hwr (funext fun q => congrFun hb (ix2 (0 : Fin 1) q)) r q

/-- An index of the result array is in point `t`'s block iff each coordinate is in the block's range on its axis. -/
theorem mem_blk (t : Fin cfg0.N) (i : S500000x128.Idx) :
    i ∈ ((cfg0.win 5).blk t).view.set ↔ ∀ a : Fin 2, win0_5.index t a * S10000x128.size a ≤ (i a).val
      ∧ (i a).val < win0_5.index t a * S10000x128.size a + S10000x128.size a := by
  show i ∈ ((View.whole main_v37).slice (win0_5.rect t)).set ↔ _
  rw [View.set_slice_whole, Rect.mem_set_unit]
  exact Iff.rfl

/-- Row `p` of the result is written back by point `p / 10000`. -/
theorem cover (i : S500000x128.Idx) :
    ∃ t : Fin cfg0.N, (cfg0.win 5).flush t = true ∧ i ∈ ((cfg0.win 5).blk t).view.set := by
  have hi0 : (i 0).val < 500000 := (i 0).isLt
  have hi1 : (i 1).val < 128 := (i 1).isLt
  have hN : grid0.N = 50 := N_0
  let t : Fin cfg0.N := ⟨(i 0).val / 10000, by show (i 0).val / 10000 < grid0.N; omega⟩
  obtain ⟨a0, a1, b0, b1, c0, c1, d0, d1, e0, e1, f0, f1⟩ := idx t
  have ht : t.val = (i 0).val / 10000 := rfl
  refine ⟨t, flush0_5 t, ?_⟩
  rw [mem_blk]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 128 ≤ (i 1).val ∧ (i 1).val < win0_5.index t (1 : Fin 2) * 128 + 128
    omega

/-- After the launch the result array is the first layer of the arrays the launch was entered with. -/
theorem array (c : Dev nD) : (dat0 (F := Ideal) V c).arrAt 5 cfg0.N = layer V c :=
  (dat0 (F := Ideal) V c).arrAt_eq_of_cover 5 (layer V c) (fun t _ => flushed_eq V c t) cover

end Cert.Sage.Launch0

end
-- ==== Proof.Launch1.lean ====
/-
    Launch 1: the first layer over the 100000 destination nodes, 10 blocks of 10000 rows.

  Grid point `t` is fed rows `10000·t … 10000·t + 9999` of the aggregated neighbours and of the nodes' own features, the
  whole weights and the bias row, and writes back rows `10000·t …` of the result.  Its body stores `hidden` of those blocks,
  which is rows `10000·t …` of `hidden` of the whole arrays (the layer is row-wise); the 10 blocks tile the result; so after
  the launch the result array IS `hidden` of the arrays the launch was entered with.
-/
import proofs.«108514_j67714454388971_1_alg».proof.Proof.Gen.KernelIdeal.Frame
import proofs.«108514_j67714454388971_1_alg».proof.Proof.Payload

set_option maxRecDepth 16384

noncomputable section

open scoped BigOperators

namespace Cert.Sage.Launch1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

-- the buffer contents the launch is entered from: any
variable (V : (c : Dev nD) → (b : Ref sig .tc) → Buf (Elt Ideal) ((c : Thread nD τ).loc b))

theorem hz : (![0, 0] : Fin 2 → Nat) = fun _ => 0 := funext fun a => by fin_cases a <;> rfl

/-- The row of the whole arrays that row `r` of point `t`'s blocks is. -/
def row (t : Fin cfg1.N) (r : Fin 10000) : Fin 100000 :=
  ⟨t.val * 10000 + r.val, by have hN : grid1.N = 10 := N_1; have ht : t.val < grid1.N := t.isLt; have hr := r.isLt; omega⟩

/-- The printed index maps over the grid: row-blocked windows sit at block `(t, 0)`, the whole ones at `(0, 0)`. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The first layer of the arrays the launch is entered with. -/
def layer (c : Dev nD) : Mat 100000 128 :=
  hidden (n := 100000) (d := 64) (h := 128) (V c main_v35) (V c main_arg1) (V c main_arg9) (V c main_arg10)
    (fun q => V c main_v38 (ix2 (0 : Fin 1) q))

/-- What point `t` writes back is rows `10000·t …` of that layer. -/
theorem flushed_eq (c : Dev nD) (t : Fin cfg1.N) :
    (dat1 (F := Ideal) V c).flushed 5 t = ((cfg1.win 5).blk t).view.read (Elt Ideal) (layer V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x128) hz, View.ld_unit_zero (S := S1x128) hz]
  obtain ⟨a0, a1, b0, b1, c0, c1, d0, d1, e0, e1, f0, f1⟩ := idx t
  funext j
  obtain ⟨r, q, rfl⟩ : ∃ (r : Fin 10000) (q : Fin 128), j = ix2 r q := ⟨j 0, j 1, eq_ix2 j⟩
  show k1_pay1 (iblk1 V c 0 t) (iblk1 V c 1 t) (iblk1 V c 2 t) (iblk1 V c 3 t) (iblk1 V c 4 t) (ix2 r q)
    = layer V c (((cfg1.win 5).blk t).view.emb (ix2 r q))
  have hemb : ((cfg1.win 5).blk t).view.emb (ix2 r q) = ix2 (row t r) q := by
    funext a; apply Fin.ext
    match a with
    | ⟨0, _⟩ => show win1_5.index t (0 : Fin 2) * 10000 + 1 * r.val = t.val * 10000 + r.val; omega
    | ⟨1, _⟩ => show win1_5.index t (1 : Fin 2) * 128 + 1 * q.val = q.val; omega
  rw [hemb]
  have ha : ∀ (r : Fin 10000) (k : Fin 64), iblk1 V c 0 t (ix2 r k) = V c main_v35 (ix2 (row t r) k) := fun r k => by
    show V c main_v35 (((cfg1.win 0).blk t).view.emb (ix2 r k)) = _
    refine congrArg (V c main_v35) (funext fun a => Fin.ext ?_)
    match a with
    | ⟨0, _⟩ => show win1_0.index t (0 : Fin 2) * 10000 + 1 * r.val = t.val * 10000 + r.val; omega
    | ⟨1, _⟩ => show win1_0.index t (1 : Fin 2) * 64 + 1 * k.val = k.val; omega
  have hx : ∀ (r : Fin 10000) (k : Fin 64), iblk1 V c 1 t (ix2 r k) = V c main_arg1 (ix2 (row t r) k) := fun r k => by
    show V c main_arg1 (((cfg1.win 1).blk t).view.emb (ix2 r k)) = _
    refine congrArg (V c main_arg1) (funext fun a => Fin.ext ?_)
    match a with
    | ⟨0, _⟩ => show win1_1.index t (0 : Fin 2) * 10000 + 1 * r.val = t.val * 10000 + r.val; omega
    | ⟨1, _⟩ => show win1_1.index t (1 : Fin 2) * 64 + 1 * k.val = k.val; omega
  have hwl : iblk1 V c 2 t = V c main_arg9 := funext fun y => by
    show V c main_arg9 (((cfg1.win 2).blk t).view.emb y) = _
    refine congrArg (V c main_arg9) (funext fun a => Fin.ext ?_)
    match a with
    | ⟨0, _⟩ => show win1_2.index t (0 : Fin 2) * 64 + 1 * (y 0).val = (y 0).val; omega
    | ⟨1, _⟩ => show win1_2.index t (1 : Fin 2) * 128 + 1 * (y 1).val = (y 1).val; omega
  have hwr : iblk1 V c 3 t = V c main_arg10 := funext fun y => by
    show V c main_arg10 (((cfg1.win 3).blk t).view.emb y) = _
    refine congrArg (V c main_arg10) (funext fun a => Fin.ext ?_)
    match a with
    | ⟨0, _⟩ => show win1_3.index t (0 : Fin 2) * 64 + 1 * (y 0).val = (y 0).val; omega
    | ⟨1, _⟩ => show win1_3.index t (1 : Fin 2) * 128 + 1 * (y 1).val = (y 1).val; omega
  have hb : iblk1 V c 4 t = V c main_v38 := funext fun y => by
    show V c main_v38 (((cfg1.win 4).blk t).view.emb y) = _
    refine congrArg (V c main_v38) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  refine (Body.pay_hidden' (iblk1 V c 0 t) (iblk1 V c 1 t) (iblk1 V c 2 t) (iblk1 V c 3 t) (iblk1 V c 4 t) r q).trans ?_
  exact hidden_block (row t) (iblk1 V c 0 t) (iblk1 V c 1 t) (V c main_v35) (V c main_arg1)
    (iblk1 V c 2 t) (iblk1 V c 3 t) (V c main_arg9) (V c main_arg10)
    (fun q => iblk1 V c 4 t (ix2 (0 : Fin 1) q)) (fun q => V c main_v38 (ix2 (0 : Fin 1) q))
    ha hx hwl hwr (funext fun q => congrFun hb (ix2 (0 : Fin 1) q)) r q

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v39).slice (win1_5.rect t)).set ↔ _
  rw [View.set_slice_whole, Rect.mem_set_unit]
  exact Iff.rfl

/-- Row `p` of the result is written back by point `p / 10000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 10 := N_1
  let t : Fin cfg1.N := ⟨(i 0).val / 10000, by show (i 0).val / 10000 < grid1.N; omega⟩
  obtain ⟨a0, a1, b0, b1, c0, c1, d0, d1, e0, e1, f0, f1⟩ := idx t
  have ht : t.val = (i 0).val / 10000 := rfl
  refine ⟨t, flush1_5 t, ?_⟩
  rw [mem_blk]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 128 ≤ (i 1).val ∧ (i 1).val < win1_5.index t (1 : Fin 2) * 128 + 128
    omega

/-- After the launch the result array is the first layer of the arrays the launch was entered with. -/
theorem array (c : Dev nD) : (dat1 (F := Ideal) V c).arrAt 5 cfg1.N = layer V c :=
  (dat1 (F := Ideal) V c).arrAt_eq_of_cover 5 (layer V c) (fun t _ => flushed_eq V c t) cover

end Cert.Sage.Launch1

end
-- ==== Proof.Launch2.lean ====
/-
    Launch 2: the second layer and the read-out over the 500000 "enc" nodes, 50 blocks of 10000 rows.

  Grid point `t` is fed rows `10000·t …` of the aggregated hidden features and of the nodes' own hidden features, the whole
  weights, the bias row, the read-out column and its offset, and writes back rows `10000·t …` of a one-column result.  Its
  body stores `logit` of those blocks, which is rows `10000·t …` of `logit` of the whole arrays; the 50 blocks tile the
  result; so after the launch the result column IS `logit` of the arrays the launch was entered with.
-/
import proofs.«108514_j67714454388971_1_alg».proof.Proof.Gen.KernelIdeal.Frame
import proofs.«108514_j67714454388971_1_alg».proof.Proof.Payload

set_option maxRecDepth 16384

noncomputable section

open scoped BigOperators

namespace Cert.Sage.Launch2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

-- the buffer contents the launch is entered from: any
variable (V : (c : Dev nD) → (b : Ref sig .tc) → Buf (Elt Ideal) ((c : Thread nD τ).loc b))

theorem hz : (![0, 0] : Fin 2 → Nat) = fun _ => 0 := funext fun a => by fin_cases a <;> rfl

/-- The row of the whole arrays that row `r` of point `t`'s blocks is. -/
def row (t : Fin cfg2.N) (r : Fin 10000) : Fin 500000 :=
  ⟨t.val * 10000 + r.val, by have hN : grid2.N = 50 := N_2; have ht : t.val < grid2.N := t.isLt; have hr := r.isLt; omega⟩

/-- The printed index maps over the grid: row-blocked windows sit at block `(t, 0)`, the whole ones at `(0, 0)`. -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Second layer and read-out of the arrays the launch is entered with. -/
def column (c : Dev nD) : Mat 500000 1 :=
  logit (n := 500000) (d := 128) (h := 128) (V c main_v57) (V c main_v37) (V c main_arg12) (V c main_arg13)
    (fun q => V c main_v58 (ix2 (0 : Fin 1) q)) (V c main_arg18) (V c main_v59 (ix2 (0 : Fin 1) (0 : Fin 1)))

/-- What point `t` writes back is rows `10000·t …` of that column. -/
theorem flushed_eq (c : Dev nD) (t : Fin cfg2.N) :
    (dat2 (F := Ideal) V c).flushed 7 t = ((cfg2.win 7).blk t).view.read (Elt Ideal) (column V c) := by
  show (cfg2.win 7).cut (grid2.coords t) ((dat2 V c).after 7 t) = _
  rw [after2_7]
  unfold out2_7
  rw [View.canon_unit_zero hz]
  simp only [View.ld_unit_zero (S := S10000x128) hz, View.ld_unit_zero (S := S128x128) hz, View.ld_unit_zero (S := S1x128) hz,
    View.ld_unit_zero (S := S128x1) hz, View.ld_unit_zero (S := S1x1) hz]
  obtain ⟨a0, a1, b0, b1, c0, c1, d0, d1, e0, e1, f0, f1, g0, g1, o0, o1⟩ := idx t
  funext j
  obtain ⟨r, u, rfl⟩ : ∃ (r : Fin 10000) (u : Fin 1), j = ix2 r u := ⟨j 0, j 1, eq_ix2 j⟩
  show k2_pay1 (iblk2 V c 0 t) (iblk2 V c 1 t) (iblk2 V c 2 t) (iblk2 V c 3 t) (iblk2 V c 4 t) (iblk2 V c 5 t) (iblk2 V c 6 t) (ix2 r u)
    = column V c (((cfg2.win 7).blk t).view.emb (ix2 r u))
  have hemb : ((cfg2.win 7).blk t).view.emb (ix2 r u) = ix2 (row t r) u := by
    funext a; apply Fin.ext
    match a with
    | ⟨0, _⟩ => show win2_7.index t (0 : Fin 2) * 10000 + 1 * r.val = t.val * 10000 + r.val; omega
    | ⟨1, _⟩ => show win2_7.index t (1 : Fin 2) * 1 + 1 * u.val = u.val; omega
  rw [hemb]
  have ha : ∀ (r : Fin 10000) (k : Fin 128), iblk2 V c 0 t (ix2 r k) = V c main_v57 (ix2 (row t r) k) := fun r k => by
    show V c main_v57 (((cfg2.win 0).blk t).view.emb (ix2 r k)) = _
    refine congrArg (V c main_v57) (funext fun a => Fin.ext ?_)
    match a with
    | ⟨0, _⟩ => show win2_0.index t (0 : Fin 2) * 10000 + 1 * r.val = t.val * 10000 + r.val; omega
    | ⟨1, _⟩ => show win2_0.index t (1 : Fin 2) * 128 + 1 * k.val = k.val; omega
  have hx : ∀ (r : Fin 10000) (k : Fin 128), iblk2 V c 1 t (ix2 r k) = V c main_v37 (ix2 (row t r) k) := fun r k => by
    show V c main_v37 (((cfg2.win 1).blk t).view.emb (ix2 r k)) = _
    refine congrArg (V c main_v37) (funext fun a => Fin.ext ?_)
    match a with
    | ⟨0, _⟩ => show win2_1.index t (0 : Fin 2) * 10000 + 1 * r.val = t.val * 10000 + r.val; omega
    | ⟨1, _⟩ => show win2_1.index t (1 : Fin 2) * 128 + 1 * k.val = k.val; omega
  have hwl : iblk2 V c 2 t = V c main_arg12 := funext fun y => by
    show V c main_arg12 (((cfg2.win 2).blk t).view.emb y) = _
    refine congrArg (V c main_arg12) (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  have hwr : iblk2 V c 3 t = V c main_arg13 := funext fun y => by
    show V c main_arg13 (((cfg2.win 3).blk t).view.emb y) = _
    refine congrArg (V c main_arg13) (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  have hb : iblk2 V c 4 t = V c main_v58 := funext fun y => by
    show V c main_v58 (((cfg2.win 4).blk t).view.emb y) = _
    refine congrArg (V c main_v58) (funext fun a => Fin.ext ?_)
    match a with
    | ⟨0, _⟩ => show win2_4.index t (0 : Fin 2) * 1 + 1 * (y 0).val = (y 0).val; omega
    | ⟨1, _⟩ => show win2_4.index t (1 : Fin 2) * 128 + 1 * (y 1).val = (y 1).val; omega
  have hwc : iblk2 V c 5 t = V c main_arg18 := funext fun y => by
    show V c main_arg18 (((cfg2.win 5).blk t).view.emb y) = _
    refine congrArg (V c main_arg18) (funext fun a => Fin.ext ?_)
    match a with
    | ⟨0, _⟩ => show win2_5.index t (0 : Fin 2) * 128 + 1 * (y 0).val = (y 0).val; omega
    | ⟨1, _⟩ => show win2_5.index t (1 : Fin 2) * 1 + 1 * (y 1).val = (y 1).val; omega
  have hg : iblk2 V c 6 t = V c main_v59 := funext fun y => by
    show V c main_v59 (((cfg2.win 6).blk t).view.emb y) = _
    refine congrArg (V c main_v59) (funext fun a => Fin.ext ?_)
    match a with
    | ⟨0, _⟩ => show win2_6.index t (0 : Fin 2) * 1 + 1 * (y 0).val = (y 0).val; omega
    | ⟨1, _⟩ => show win2_6.index t (1 : Fin 2) * 1 + 1 * (y 1).val = (y 1).val; omega
  refine (Body.pay_logit (iblk2 V c 0 t) (iblk2 V c 1 t) (iblk2 V c 2 t) (iblk2 V c 3 t) (iblk2 V c 4 t) (iblk2 V c 5 t) (iblk2 V c 6 t) r u).trans ?_
  exact logit_block (row t) (iblk2 V c 0 t) (iblk2 V c 1 t) (V c main_v57) (V c main_v37)
    (iblk2 V c 2 t) (iblk2 V c 3 t) (V c main_arg12) (V c main_arg13)
    (fun q => iblk2 V c 4 t (ix2 (0 : Fin 1) q)) (fun q => V c main_v58 (ix2 (0 : Fin 1) q))
    (iblk2 V c 5 t) (V c main_arg18) (iblk2 V c 6 t (ix2 (0 : Fin 1) (0 : Fin 1))) (V c main_v59 (ix2 (0 : Fin 1) (0 : Fin 1)))
    ha hx hwl hwr (funext fun q => congrFun hb (ix2 (0 : Fin 1) q)) hwc (congrFun hg (ix2 (0 : Fin 1) (0 : Fin 1))) r u u

/-- An index of the result column is in point `t`'s block iff each coordinate is in the block's range on its axis. -/
theorem mem_blk (t : Fin cfg2.N) (i : S500000x1.Idx) :
    i ∈ ((cfg2.win 7).blk t).view.set ↔ ∀ a : Fin 2, win2_7.index t a * S10000x1.size a ≤ (i a).val
      ∧ (i a).val < win2_7.index t a * S10000x1.size a + S10000x1.size a := by
  show i ∈ ((View.whole main_v60).slice (win2_7.rect t)).set ↔ _
  rw [View.set_slice_whole, Rect.mem_set_unit]
  exact Iff.rfl

/-- Row `p` of the result is written back by point `p / 10000`. -/
theorem cover (i : S500000x1.Idx) :
    ∃ t : Fin cfg2.N, (cfg2.win 7).flush t = true ∧ i ∈ ((cfg2.win 7).blk t).view.set := by
  have hi0 : (i 0).val < 500000 := (i 0).isLt
  have hi1 : (i 1).val < 1 := (i 1).isLt
  have hN : grid2.N = 50 := N_2
  let t : Fin cfg2.N := ⟨(i 0).val / 10000, by show (i 0).val / 10000 < grid2.N; omega⟩
  obtain ⟨a0, a1, b0, b1, c0, c1, d0, d1, e0, e1, f0, f1, g0, g1, o0, o1⟩ := idx t
  have ht : t.val = (i 0).val / 10000 := rfl
  refine ⟨t, flush2_7 t, ?_⟩
  rw [mem_blk]
  intro a
  match a with
  | ⟨0, _⟩ =>
    show win2_7.index t (0 : Fin 2) * 10000 ≤ (i 0).val ∧ (i 0).val < win2_7.index t (0 : Fin 2) * 10000 + 10000
    omega
  | ⟨1, _⟩ =>
    show win2_7.index t (1 : Fin 2) * 1 ≤ (i 1).val ∧ (i 1).val < win2_7.index t (1 : Fin 2) * 1 + 1
    omega

/-- After the launch the result column is the second layer and read-out of the arrays the launch was entered with. -/
theorem array (c : Dev nD) : (dat2 (F := Ideal) V c).arrAt 7 cfg2.N = column V c :=
  (dat2 (F := Ideal) V c).arrAt_eq_of_cover 7 (column V c) (fun t _ => flushed_eq V c t) cover

end Cert.Sage.Launch2

end
-- ==== Proof.Aggregate.lean ====
/-
  The mean over incoming edges, as the host computes it — carried as ONE function of the source features and the two
  edge-index vectors, and never opened.

  For an edge list (src, dst) of a million edges: a negative source index wraps round (`i < 0 ↦ i + n`), the source rows
  are gathered along the edges, summed into their destination rows, and each destination row is divided by the number
  of edges arriving there, or by one where none does.  Both programs spell this with the same operations in the same
  order; everything downstream only needs that the two spellings are the same function, so the certificate names it and
  treats it as a black box.  Three instances: from the 100000 "pat" nodes to the 500000 "enc" nodes on 64 and on 128
  features, and from the "enc" nodes to the "pat" nodes on 64 features.
-/
import proofs.«108514_j67714454388971_1_alg».proof.Proof.Gen.KernelIdeal
import Idealize.ShloMosaic.PureOps.Ideal

noncomputable section

namespace Cert.Sage.Agg

open Idealize.ShloMosaic Cert.KernelIdeal Cert.KernelIdeal.Facts₀ Cert.KernelIdeal.Facts

/-- A vector of a million 32-bit edge indices. -/
abbrev Edges := (⟨S1000000, .i32⟩ : BufTy).Contents (Elt Ideal)

/-- Source indices as a column, a negative one wrapped round by the number `n` of source nodes. -/
def wrapped (n : BitVec 32) (src : Edges) : (⟨S1000000x1, .i32⟩ : BufTy).Contents (Elt Ideal) :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 n))) src)

/-- Destination indices as a column. -/
def column (dst : Edges) : (⟨S1000000x1, .i32⟩ : BufTy).Contents (Elt Ideal) :=
  broadcastInDim S1000000x1 ![0] bcast_S1000000_S1000000x1_0 dst

/-- One per edge. -/
def ones : (⟨S1000000x1, .f32⟩ : BufTy).Contents (Elt Ideal) :=
  broadcastInDim S1000000x1 ![] bcast_S_S1000000x1 (constant (F := Ideal) S_ .f32 0x3F800000#32)

/-- Edges arriving at each of the 500000 nodes, at least one. -/
def arriving500 (dst : Edges) : FVec Ideal S500000x1 .f32 :=
  maximumf (Host.scatterAdd (F := Ideal) scatter_S500000x1_S1000000x1_S1000000x1_1_0_0_1
      (broadcastInDim S500000x1 ![] bcast_S_S500000x1 (constant (F := Ideal) S_ .f32 0x00000000#32)) (column dst) ones)
    (broadcastInDim S500000x1 ![] bcast_S_S500000x1 (constant (F := Ideal) S_ .f32 0x3F800000#32))

/-- Edges arriving at each of the 100000 nodes, at least one. -/
def arriving100 (dst : Edges) : FVec Ideal S100000x1 .f32 :=
  maximumf (Host.scatterAdd (F := Ideal) scatter_S100000x1_S1000000x1_S1000000x1_1_0_0_1
      (broadcastInDim S100000x1 ![] bcast_S_S100000x1 (constant (F := Ideal) S_ .f32 0x00000000#32)) (column dst) ones)
    (broadcastInDim S100000x1 ![] bcast_S_S100000x1 (constant (F := Ideal) S_ .f32 0x3F800000#32))

/-- Mean of 64 features of the 100000 nodes over the edges into each of the 500000 nodes. -/
def meanInto500 (x : FVec Ideal S100000x64 .f32) (src dst : Edges) : FVec Ideal S500000x64 .f32 :=
  Host.divf (F := Ideal)
    (Host.scatterAdd (F := Ideal) scatter_S500000x64_S1000000x1_S1000000x64_1_0_0_1
      (broadcastInDim S500000x64 ![] bcast_S_S500000x64 (constant (F := Ideal) S_ .f32 0x00000000#32)) (column dst)
      (Host.gather gather_S100000x64_S1000000x1_S1000000x64_1_0_n_n_0_1_164 x (wrapped 100000#32 src)))
    (broadcastInDim S500000x64 ![0, 1] bcast_S500000x1_S500000x64_0_1 (arriving500 dst))

/-- Mean of 64 features of the 500000 nodes over the edges into each of the 100000 nodes. -/
def meanInto100 (x : FVec Ideal S500000x64 .f32) (src dst : Edges) : FVec Ideal S100000x64 .f32 :=
  Host.divf (F := Ideal)
    (Host.scatterAdd (F := Ideal) scatter_S100000x64_S1000000x1_S1000000x64_1_0_0_1
      (broadcastInDim S100000x64 ![] bcast_S_S100000x64 (constant (F := Ideal) S_ .f32 0x00000000#32)) (column dst)
      (Host.gather gather_S500000x64_S1000000x1_S1000000x64_1_0_n_n_0_1_164 x (wrapped 500000#32 src)))
    (broadcastInDim S100000x64 ![0, 1] bcast_S100000x1_S100000x64_0_1 (arriving100 dst))

/-- Mean of 128 features of the 100000 nodes over the edges into each of the 500000 nodes. -/
def wideMeanInto500 (x : FVec Ideal S100000x128 .f32) (src dst : Edges) : FVec Ideal S500000x128 .f32 :=
  Host.divf (F := Ideal)
    (Host.scatterAdd (F := Ideal) scatter_S500000x128_S1000000x1_S1000000x128_1_0_0_1
      (broadcastInDim S500000x128 ![] bcast_S_S500000x128 (constant (F := Ideal) S_ .f32 0x00000000#32)) (column dst)
      (Host.gather gather_S100000x128_S1000000x1_S1000000x128_1_0_n_n_0_1_1128 x (wrapped 100000#32 src)))
    (broadcastInDim S500000x128 ![0, 1] bcast_S500000x1_S500000x128_0_1 (arriving500 dst))

end Cert.Sage.Agg

end
-- ==== Proof.Boundaries.lean ====
/-
  What each launch is entered with, and what the program returns, read back to the launch memory.

  Between launches the host only computes new arrays; it never overwrites an argument, and a launch writes only its own
  result.  So at each launch's entry: an argument array still holds its launch contents; the aggregated neighbours are the
  host's mean over incoming edges of the arrays it was computed from; a bias row is the bias vector with a unit axis in
  front; the first launch's result is still there when the third launch reads it; and the program's result is the third
  launch's one-column result with the unit axis dropped.
-/
import proofs.«108514_j67714454388971_1_alg».proof.Proof.Gen.KernelIdeal.Frame
import proofs.«108514_j67714454388971_1_alg».proof.Proof.Aggregate

set_option maxRecDepth 16384

noncomputable section

namespace Cert.Sage.Bound

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Facts₀ Cert.KernelIdeal.Facts Cert.Sage

variable (m : (ℓ : Loc nD τ sig) → Buf (Elt Ideal) ℓ) (ρ : Dev nD → PrngReg)

/-! ## The first launch's entry -/

theorem entry0_arg0 (c : Dev nD) : V1 m ρ c main_arg0 = m ((c : Thread nD τ).loc main_arg0) := by
  show StableHlo.after hostOps0 (W0 m ρ c) (Proc.devRef .tc main_arg0) = _
  dsimp only [hostOps0]; after_results_simp <;> rfl

theorem entry0_arg6 (c : Dev nD) : V1 m ρ c main_arg6 = m ((c : Thread nD τ).loc main_arg6) := by
  show StableHlo.after hostOps0 (W0 m ρ c) (Proc.devRef .tc main_arg6) = _
  dsimp only [hostOps0]; after_results_simp <;> rfl

theorem entry0_arg7 (c : Dev nD) : V1 m ρ c main_arg7 = m ((c : Thread nD τ).loc main_arg7) := by
  show StableHlo.after hostOps0 (W0 m ρ c) (Proc.devRef .tc main_arg7) = _
  dsimp only [hostOps0]; after_results_simp <;> rfl

theorem entry0_agg (c : Dev nD) :
    V1 m ρ c main_v17 = Agg.meanInto500 (m ((c : Thread nD τ).loc main_arg1)) (m ((c : Thread nD τ).loc main_arg2)) (m ((c : Thread nD τ).loc main_arg3)) := by
  show StableHlo.after hostOps0 (W0 m ρ c) (Proc.devRef .tc main_v17) = _
  dsimp only [hostOps0]; after_results_simp <;> rfl

theorem entry0_bias (c : Dev nD) :
    V1 m ρ c main_v36 = shapeCast S1x128 (m ((c : Thread nD τ).loc main_arg8)) Facts₀.shapeCasts_S128_S1x128 := by
  show StableHlo.after hostOps0 (W0 m ρ c) (Proc.devRef .tc main_v36) = _
  dsimp only [hostOps0]; after_results_simp <;> rfl

/-! ## Past the first launch -/

theorem w2_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  dsimp only [hostOps0]; after_results_simp <;> rfl

theorem w2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  dsimp only [hostOps0]; after_results_simp <;> rfl

theorem w2_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  dsimp only [hostOps0]; after_results_simp <;> rfl

theorem w2_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  dsimp only [hostOps0]; after_results_simp <;> rfl

theorem w2_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  dsimp only [hostOps0]; after_results_simp <;> rfl

theorem w2_arg11 (c : Dev nD) : W2 m ρ c (Proc.devRef .tc main_arg11) = m ((c : Thread nD τ).loc main_arg11) := by
  refine (W2_of_ne m ρ c main_arg11 (by decide)).trans ?_
  show StableHlo.after hostOps0 (W0 m ρ c) (Proc.devRef .tc main_arg11) = _
  dsimp only [hostOps0]; after_results_simp <;> rfl

theorem w2_arg12 (c : Dev nD) : W2 m ρ c (Proc.devRef .tc main_arg12) = m ((c : Thread nD τ).loc main_arg12) := by
  refine (W2_of_ne m ρ c main_arg12 (by decide)).trans ?_
  show StableHlo.after hostOps0 (W0 m ρ c) (Proc.devRef .tc main_arg12) = _
  dsimp only [hostOps0]; after_results_simp <;> rfl

theorem w2_arg13 (c : Dev nD) : W2 m ρ c (Proc.devRef .tc main_arg13) = m ((c : Thread nD τ).loc main_arg13) := by
  refine (W2_of_ne m ρ c main_arg13 (by decide)).trans ?_
  show StableHlo.after hostOps0 (W0 m ρ c) (Proc.devRef .tc main_arg13) = _
  dsimp only [hostOps0]; after_results_simp <;> rfl

theorem w2_arg14 (c : Dev nD) : W2 m ρ c (Proc.devRef .tc main_arg14) = m ((c : Thread nD τ).loc main_arg14) := by
  refine (W2_of_ne m ρ c main_arg14 (by decide)).trans ?_
  show StableHlo.after hostOps0 (W0 m ρ c) (Proc.devRef .tc main_arg14) = _
  dsimp only [hostOps0]; after_results_simp <;> rfl

theorem w2_arg18 (c : Dev nD) : W2 m ρ c (Proc.devRef .tc main_arg18) = m ((c : Thread nD τ).loc main_arg18) := by
  refine (W2_of_ne m ρ c main_arg18 (by decide)).trans ?_
  show StableHlo.after hostOps0 (W0 m ρ c) (Proc.devRef .tc main_arg18) = _
  dsimp only [hostOps0]; after_results_simp <;> rfl

theorem w2_arg19 (c : Dev nD) : W2 m ρ c (Proc.devRef .tc main_arg19) = m ((c : Thread nD τ).loc main_arg19) := by
  refine (W2_of_ne m ρ c main_arg19 (by decide)).trans ?_
  show StableHlo.after hostOps0 (W0 m ρ c) (Proc.devRef .tc main_arg19) = _
  dsimp only [hostOps0]; after_results_simp <;> rfl

theorem w2_agg (c : Dev nD) : W2 m ρ c (Proc.devRef .tc main_v35) = Agg.meanInto100 (m ((c : Thread nD τ).loc main_arg0)) (m ((c : Thread nD τ).loc main_arg4)) (m ((c : Thread nD τ).loc main_arg5)) := by
  refine (W2_of_ne m ρ c main_v35 (by decide)).trans ?_
  show StableHlo.after hostOps0 (W0 m ρ c) (Proc.devRef .tc main_v35) = _
  dsimp only [hostOps0]; after_results_simp <;> rfl

/-! ## The second launch's entry -/

theorem entry1_arg1 (c : Dev nD) : V3 m ρ c main_arg1 = m ((c : Thread nD τ).loc main_arg1) := by
  show StableHlo.after hostOps1 (W2 m ρ c) (Proc.devRef .tc main_arg1) = _
  dsimp only [hostOps1]; after_results
  exact w2_arg1 m ρ c

theorem entry1_arg9 (c : Dev nD) : V3 m ρ c main_arg9 = m ((c : Thread nD τ).loc main_arg9) := by
  show StableHlo.after hostOps1 (W2 m ρ c) (Proc.devRef .tc main_arg9) = _
  dsimp only [hostOps1]; after_results
  exact w2_arg9 m ρ c

theorem entry1_arg10 (c : Dev nD) : V3 m ρ c main_arg10 = m ((c : Thread nD τ).loc main_arg10) := by
  show StableHlo.after hostOps1 (W2 m ρ c) (Proc.devRef .tc main_arg10) = _
  dsimp only [hostOps1]; after_results
  exact w2_arg10 m ρ c

theorem entry1_agg (c : Dev nD) : V3 m ρ c main_v35 = Agg.meanInto100 (m ((c : Thread nD τ).loc main_arg0)) (m ((c : Thread nD τ).loc main_arg4)) (m ((c : Thread nD τ).loc main_arg5)) := by
  show StableHlo.after hostOps1 (W2 m ρ c) (Proc.devRef .tc main_v35) = _
  dsimp only [hostOps1]; after_results
  exact w2_agg m ρ c

theorem entry1_bias (c : Dev nD) :
    V3 m ρ c main_v38 = shapeCast S1x128 (m ((c : Thread nD τ).loc main_arg11)) Facts₀.shapeCasts_S128_S1x128 := by
  show StableHlo.after hostOps1 (W2 m ρ c) (Proc.devRef .tc main_v38) = _
  dsimp only [hostOps1]; after_results
  rw [w2_arg11 m ρ c]
  rfl

/-! ## Past the second launch -/

theorem w4_arg2 (c : Dev nD) : W4 m ρ c (Proc.devRef .tc main_arg2) = m ((c : Thread nD τ).loc main_arg2) := by
  refine (W4_of_ne m ρ c main_arg2 (by decide)).trans ?_
  show StableHlo.after hostOps1 (W2 m ρ c) (Proc.devRef .tc main_arg2) = _
  dsimp only [hostOps1]; after_results
  exact w2_arg2 m ρ c

theorem w4_arg3 (c : Dev nD) : W4 m ρ c (Proc.devRef .tc main_arg3) = m ((c : Thread nD τ).loc main_arg3) := by
  refine (W4_of_ne m ρ c main_arg3 (by decide)).trans ?_
  show StableHlo.after hostOps1 (W2 m ρ c) (Proc.devRef .tc main_arg3) = _
  dsimp only [hostOps1]; after_results
  exact w2_arg3 m ρ c

theorem w4_arg12 (c : Dev nD) : W4 m ρ c (Proc.devRef .tc main_arg12) = m ((c : Thread nD τ).loc main_arg12) := by
  refine (W4_of_ne m ρ c main_arg12 (by decide)).trans ?_
  show StableHlo.after hostOps1 (W2 m ρ c) (Proc.devRef .tc main_arg12) = _
  dsimp only [hostOps1]; after_results
  exact w2_arg12 m ρ c

theorem w4_arg13 (c : Dev nD) : W4 m ρ c (Proc.devRef .tc main_arg13) = m ((c : Thread nD τ).loc main_arg13) := by
  refine (W4_of_ne m ρ c main_arg13 (by decide)).trans ?_
  show StableHlo.after hostOps1 (W2 m ρ c) (Proc.devRef .tc main_arg13) = _
  dsimp only [hostOps1]; after_results
  exact w2_arg13 m ρ c

theorem w4_arg14 (c : Dev nD) : W4 m ρ c (Proc.devRef .tc main_arg14) = m ((c : Thread nD τ).loc main_arg14) := by
  refine (W4_of_ne m ρ c main_arg14 (by decide)).trans ?_
  show StableHlo.after hostOps1 (W2 m ρ c) (Proc.devRef .tc main_arg14) = _
  dsimp only [hostOps1]; after_results
  exact w2_arg14 m ρ c

theorem w4_arg18 (c : Dev nD) : W4 m ρ c (Proc.devRef .tc main_arg18) = m ((c : Thread nD τ).loc main_arg18) := by
  refine (W4_of_ne m ρ c main_arg18 (by decide)).trans ?_
  show StableHlo.after hostOps1 (W2 m ρ c) (Proc.devRef .tc main_arg18) = _
  dsimp only [hostOps1]; after_results
  exact w2_arg18 m ρ c

theorem w4_arg19 (c : Dev nD) : W4 m ρ c (Proc.devRef .tc main_arg19) = m ((c : Thread nD τ).loc main_arg19) := by
  refine (W4_of_ne m ρ c main_arg19 (by decide)).trans ?_
  show StableHlo.after hostOps1 (W2 m ρ c) (Proc.devRef .tc main_arg19) = _
  dsimp only [hostOps1]; after_results
  exact w2_arg19 m ρ c

/-- The first launch's result is untouched by the second launch and the host lines around it. -/
theorem w4_hidden (c : Dev nD) : W4 m ρ c (Proc.devRef .tc main_v37) = (dat0 (V1 m ρ) c).arrAt 5 cfg0.N := by
  refine (W4_of_ne m ρ c main_v37 (by decide)).trans ?_
  show StableHlo.after hostOps1 (W2 m ρ c) (Proc.devRef .tc main_v37) = _
  dsimp only [hostOps1]; after_results
  exact W2_arr m ρ c 5

/-! ## The third launch's entry -/

theorem entry2_arg12 (c : Dev nD) : V5 m ρ c main_arg12 = m ((c : Thread nD τ).loc main_arg12) := by
  show StableHlo.after hostOps2 (W4 m ρ c) (Proc.devRef .tc main_arg12) = _
  dsimp only [hostOps2]; after_results_simp
  exact w4_arg12 m ρ c

theorem entry2_arg13 (c : Dev nD) : V5 m ρ c main_arg13 = m ((c : Thread nD τ).loc main_arg13) := by
  show StableHlo.after hostOps2 (W4 m ρ c) (Proc.devRef .tc main_arg13) = _
  dsimp only [hostOps2]; after_results_simp
  exact w4_arg13 m ρ c

theorem entry2_arg18 (c : Dev nD) : V5 m ρ c main_arg18 = m ((c : Thread nD τ).loc main_arg18) := by
  show StableHlo.after hostOps2 (W4 m ρ c) (Proc.devRef .tc main_arg18) = _
  dsimp only [hostOps2]; after_results_simp
  exact w4_arg18 m ρ c

theorem entry2_hidden (c : Dev nD) : V5 m ρ c main_v37 = (dat0 (V1 m ρ) c).arrAt 5 cfg0.N := by
  show StableHlo.after hostOps2 (W4 m ρ c) (Proc.devRef .tc main_v37) = _
  dsimp only [hostOps2]; after_results_simp
  exact w4_hidden m ρ c

theorem entry2_agg (c : Dev nD) :
    V5 m ρ c main_v57 = Agg.wideMeanInto500 ((dat1 (V3 m ρ) c).arrAt 5 cfg1.N) (m ((c : Thread nD τ).loc main_arg2)) (m ((c : Thread nD τ).loc main_arg3)) := by
  show StableHlo.after hostOps2 (W4 m ρ c) (Proc.devRef .tc main_v57) = _
  dsimp only [hostOps2]; after_results_simp
  rw [w4_arg2 m ρ c, w4_arg3 m ρ c, show W4 m ρ c (Proc.devRef .tc main_v39) = (dat1 (V3 m ρ) c).arrAt 5 cfg1.N from W4_arr m ρ c 5]
  rfl

theorem entry2_bias (c : Dev nD) :
    V5 m ρ c main_v58 = shapeCast S1x128 (m ((c : Thread nD τ).loc main_arg14)) Facts₀.shapeCasts_S128_S1x128 := by
  show StableHlo.after hostOps2 (W4 m ρ c) (Proc.devRef .tc main_v58) = _
  dsimp only [hostOps2]; after_results_simp
  rw [w4_arg14 m ρ c]
  rfl

theorem entry2_offset (c : Dev nD) :
    V5 m ρ c main_v59 = shapeCast S1x1 (m ((c : Thread nD τ).loc main_arg19)) Facts₀.shapeCasts_S1_S1x1 := by
  show StableHlo.after hostOps2 (W4 m ρ c) (Proc.devRef .tc main_v59) = _
  dsimp only [hostOps2]; after_results_simp
  rw [w4_arg19 m ρ c]
  rfl

/-! ## The result -/

theorem result (c : Dev nD) :
    W7 m ρ c (Proc.devRef .tc main_v61) = shapeCast S500000 ((dat2 (V5 m ρ) c).arrAt 7 cfg2.N) Facts₀.shapeCasts_S500000x1_S500000 := by
  show StableHlo.after hostOps3 (W6 m ρ c) (Proc.devRef .tc main_v61) = _
  dsimp only [hostOps3]; after_results
  rw [show W6 m ρ c (Proc.devRef .tc main_v60) = (dat2 (V5 m ρ) c).arrAt 7 cfg2.N from W6_arr m ρ c 7]
  rfl

end Cert.Sage.Bound

end
-- ==== Proof.KernelRun.lean ====
/-
  The program's run with every buffer named at its last boundary.

  The program is three launches among stretches of host operations.  Its run is the chain of those seven segments from
  the launch memory; at the end every buffer that outlives the launches holds the contents of the last boundary of
  that chain (the fold `W7`: host stretches applied in order, each launch's arrays at what its write-backs leave).  The
  frame states this only for the argument arrays; here it is stated for every such buffer, which names the result.
-/
import proofs.«108514_j67714454388971_1_alg».proof.Proof.Gen.KernelIdeal.Frame

set_option maxRecDepth 16384

noncomputable section

namespace Cert.Sage.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and every buffer that outlives the launches ends at the last boundary's
    contents. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The result array after the run. -/
theorem result_eq (r : PUnit × MemSt nD τ sig (Elt F))
    (h : ∀ c : Dev nD, ∀ b ∈ Pipeline.ucRefs τ sig, r.2.mem (((c : Thread nD τ)).1, b) = W7 m ρ c b) (c : Dev nD) :
    r.2.mem ((c.tc : Thread nD τ).loc main_v61) = W7 m ρ c (Proc.devRef .tc main_v61) :=
  h c _ (mem_uc main_v61 (by decide))

end Cert.Sage.Run

end
-- ==== Proof.Network.lean ====
/-
  The whole network as one function of the twenty arguments.

  "pat" nodes (100000) and "enc" nodes (500000), a million edges each way.  First layer: every enc node takes the mean of
  its incoming pat features, every pat node the mean of its incoming enc features, both through a 64 → 128 convolution
  clamped below at zero.  Second layer, on the enc nodes only: the mean of the incoming pat nodes' hidden features and the
  node's own hidden features through a 128 → 128 convolution, read out to one number per node; the column of those numbers,
  its unit axis dropped, is the result.
-/
import proofs.«108514_j67714454388971_1_alg».proof.Proof.Aggregate
import proofs.«108514_j67714454388971_1_alg».proof.Proof.Net

noncomputable section

namespace Cert.Sage

open Idealize.ShloMosaic Idealize.ShloMosaic.ValueIdx Cert.KernelIdeal Cert.KernelIdeal.Facts₀ Cert.KernelIdeal.Facts

/-- Hidden features of the 500000 enc nodes. -/
def hiddenEnc (x0 : FVec Ideal S500000x64 .f32) (x1 : FVec Ideal S100000x64 .f32) (e2 e3 : Agg.Edges)
    (w6 w7 : FVec Ideal S64x128 .f32) (b8 : FVec Ideal S128 .f32) : Mat 500000 128 :=
  hidden (n := 500000) (d := 64) (h := 128) (Agg.meanInto500 x1 e2 e3) x0 w6 w7 (fun q => b8 (ix1 q))

/-- Hidden features of the 100000 pat nodes. -/
def hiddenPat (x0 : FVec Ideal S500000x64 .f32) (x1 : FVec Ideal S100000x64 .f32) (e4 e5 : Agg.Edges)
    (w9 w10 : FVec Ideal S64x128 .f32) (b11 : FVec Ideal S128 .f32) : Mat 100000 128 :=
  hidden (n := 100000) (d := 64) (h := 128) (Agg.meanInto100 x0 e4 e5) x1 w9 w10 (fun q => b11 (ix1 q))

/-- The second layer and read-out on the enc nodes, as a column. -/
def logitColumn (hp : Mat 100000 128) (he : Mat 500000 128) (e2 e3 : Agg.Edges)
    (w12 w13 : FVec Ideal S128x128 .f32) (b14 : FVec Ideal S128 .f32) (w18 : FVec Ideal S128x1 .f32) (b19 : FVec Ideal S1 .f32) :
    Mat 500000 1 :=
  logit (n := 500000) (d := 128) (h := 128) (Agg.wideMeanInto500 hp e2 e3) he w12 w13 (fun q => b14 (ix1 q)) w18
    (b19 (ix1 (0 : Fin 1)))

/-- The network's result: one number per enc node. -/
def logits (x0 : FVec Ideal S500000x64 .f32) (x1 : FVec Ideal S100000x64 .f32) (e2 e3 e4 e5 : Agg.Edges)
    (w6 w7 : FVec Ideal S64x128 .f32) (b8 : FVec Ideal S128 .f32) (w9 w10 : FVec Ideal S64x128 .f32) (b11 : FVec Ideal S128 .f32)
    (w12 w13 : FVec Ideal S128x128 .f32) (b14 : FVec Ideal S128 .f32) (w18 : FVec Ideal S128x1 .f32) (b19 : FVec Ideal S1 .f32) :
    FVec Ideal S500000 .f32 :=
  shapeCast S500000
    (logitColumn (hiddenPat x0 x1 e4 e5 w9 w10 b11) (hiddenEnc x0 x1 e2 e3 w6 w7 b8) e2 e3 w12 w13 b14 w18 b19)
    shapeCasts_S500000x1_S500000

end Cert.Sage

end
-- ==== Proof.KernelValue.lean ====
/-
  The idealized kernel program computes the network.

  Each launch leaves in its result array the layer of the arrays it was entered with (the launch modules); those arrays
  are the launch memory's arguments, the host's aggregations of them, bias rows that are the bias vectors with a unit axis
  in front, and — for the last launch — the first two launches' results (the boundaries module).  Put together: the first
  launch leaves the enc nodes' hidden features, the second the pat nodes', the third the column of read-outs, and the
  program returns that column with its unit axis dropped.
-/
import proofs.«108514_j67714454388971_1_alg».proof.Proof.Launch0
import proofs.«108514_j67714454388971_1_alg».proof.Proof.Launch1
import proofs.«108514_j67714454388971_1_alg».proof.Proof.Launch2
import proofs.«108514_j67714454388971_1_alg».proof.Proof.Boundaries
import proofs.«108514_j67714454388971_1_alg».proof.Proof.KernelRun
import proofs.«108514_j67714454388971_1_alg».proof.Proof.Network
import Idealize.ShloMosaic.Lib.ValueLayout

set_option maxRecDepth 16384

noncomputable section

namespace Cert.Sage.Kernel

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Facts₀ Cert.KernelIdeal.Facts Cert.Sage

variable (m : (ℓ : Loc nD τ sig) → Buf (Elt Ideal) ℓ) (ρ : Dev nD → PrngReg)

/-- A bias row that is a bias vector with a unit axis in front reads, along the row, the vector. -/
theorem bias_row (b : FVec Ideal S128 .f32) :
    (fun q : Fin 128 => shapeCast S1x128 b Facts₀.shapeCasts_S128_S1x128 (ix2 (0 : Fin 1) q)) = fun q => b (ix1 q) :=
  funext fun q => shapeCast_a_1a_apply b Facts₀.shapeCasts_S128_S1x128 (0 : Fin 1) q

/-- The first launch leaves the enc nodes' hidden features. -/
theorem first (c : Dev nD) :
    (dat0 (V1 m ρ) c).arrAt 5 cfg0.N = hiddenEnc (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  rw [Launch0.array]
  unfold Launch0.layer hiddenEnc
  rw [Bound.entry0_agg m ρ c, Bound.entry0_arg0 m ρ c, Bound.entry0_arg6 m ρ c, Bound.entry0_arg7 m ρ c, Bound.entry0_bias m ρ c,
    bias_row]

/-- The second launch leaves the pat nodes' hidden features. -/
theorem second (c : Dev nD) :
    (dat1 (V3 m ρ) c).arrAt 5 cfg1.N = hiddenPat (m ((c : Thread nD τ).loc main_arg0)) (m ((c : Thread nD τ).loc main_arg1)) (m ((c : Thread nD τ).loc main_arg4)) (m ((c : Thread nD τ).loc main_arg5)) (m ((c : Thread nD τ).loc main_arg9)) (m ((c : Thread nD τ).loc main_arg10)) (m ((c : Thread nD τ).loc main_arg11)) := by
  rw [Launch1.array]
  unfold Launch1.layer hiddenPat
  rw [Bound.entry1_agg m ρ c, Bound.entry1_arg1 m ρ c, Bound.entry1_arg9 m ρ c, Bound.entry1_arg10 m ρ c, Bound.entry1_bias m ρ c,
    bias_row]

/-- The third launch's aggregated operand, for any name `hp` of the second launch's result. -/
theorem agg_of (c : Dev nD) {hp} (h : (dat1 (V3 m ρ) c).arrAt 5 cfg1.N = hp) :
    V5 m ρ c main_v57 = Agg.wideMeanInto500 hp (m ((c : Thread nD τ).loc main_arg2)) (m ((c : Thread nD τ).loc main_arg3)) := by
  subst h
  exact Bound.entry2_agg m ρ c

/-- The third launch's own-features operand, for any name `he` of the first launch's result. -/
theorem hidden_of (c : Dev nD) {he} (h : (dat0 (V1 m ρ) c).arrAt 5 cfg0.N = he) : V5 m ρ c main_v37 = he := by
  subst h
  exact Bound.entry2_hidden m ρ c

/-- The third launch leaves the column of read-outs. -/
theorem third (c : Dev nD) :
    (dat2 (V5 m ρ) c).arrAt 7 cfg2.N
      = logitColumn (hiddenPat (m ((c : Thread nD τ).loc main_arg0)) (m ((c : Thread nD τ).loc main_arg1)) (m ((c : Thread nD τ).loc main_arg4)) (m ((c : Thread nD τ).loc main_arg5)) (m ((c : Thread nD τ).loc main_arg9)) (m ((c : Thread nD τ).loc main_arg10)) (m ((c : Thread nD τ).loc main_arg11)))
          (hiddenEnc (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)))
          (m ((c : Thread nD τ).loc main_arg2)) (m ((c : Thread nD τ).loc main_arg3)) (m ((c : Thread nD τ).loc main_arg12)) (m ((c : Thread nD τ).loc main_arg13)) (m ((c : Thread nD τ).loc main_arg14)) (m ((c : Thread nD τ).loc main_arg18)) (m ((c : Thread nD τ).loc main_arg19)) := by
  rw [Launch2.array]
  unfold Launch2.column logitColumn
  rw [agg_of m ρ c (second m ρ c), hidden_of m ρ c (first m ρ c), Bound.entry2_arg12 m ρ c, Bound.entry2_arg13 m ρ c,
    Bound.entry2_arg18 m ρ c, Bound.entry2_bias m ρ c, Bound.entry2_offset m ρ c, bias_row,
    shapeCast_a_1a_apply (m ((c : Thread nD τ).loc main_arg19)) Facts₀.shapeCasts_S1_S1x1 (0 : Fin 1) (0 : Fin 1)]

/-- The program's result buffer at the last boundary is the network of the launch memory's arguments. -/
theorem result (c : Dev nD) :
    W7 m ρ c (Proc.devRef .tc main_v61)
      = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg18)) (m ((c : Thread nD τ).loc main_arg19)) := by
  exact (Bound.result m ρ c).trans
    (congrArg (fun v => shapeCast S500000 v Facts₀.shapeCasts_S500000x1_S500000) (third m ρ c))

/-- The run: every weakly fair execution terminates with the result at the network of the arguments and the arguments
    unchanged. -/
theorem run : θ_run defs (onTc (τ := τ) (main (F := Ideal))) ⟨m, fun _ => 0, ρ⟩ (fun r => ∀ c : Dev nD,
      r.2.mem ((c : Thread nD τ).loc main_v61)
        = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
            (m ((c : Thread nD τ).loc main_arg12)) (m ((c : Thread nD τ).loc main_arg13)) (m ((c : Thread nD τ).loc main_arg14)) (m ((c : Thread nD τ).loc main_arg18)) (m ((c : Thread nD τ).loc main_arg19))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)) :=
  (θ_run defs _ _).mono (fun r h c =>
    ⟨(Run.result_eq m ρ r h c).trans (result m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c),
     (h c _ (mem_uc main_arg16 (by decide))).trans (W7_main_arg16 m ρ c),
     (h c _ (mem_uc main_arg17 (by decide))).trans (W7_main_arg17 m ρ c),
     (h c _ (mem_uc main_arg18 (by decide))).trans (W7_main_arg18 m ρ c),
     (h c _ (mem_uc main_arg19 (by decide))).trans (W7_main_arg19 m ρ c)⟩)
    (Run.run_named m ρ)

end Cert.Sage.Kernel

end
-- ==== Proof.RefAgg.lean ====
/-
  The reference's three aggregation stages are the shared host lines (the same operations in the same order as the other
  program's), so each is the one function the certificate carries for it.
-/
import proofs.«108514_j67714454388971_1_alg».proof.Proof.Gen.ReferenceIdeal.Read
import proofs.«108514_j67714454388971_1_alg».proof.Proof.Network

set_option maxRecDepth 16384

noncomputable section

open scoped BigOperators

namespace Cert.Sage.Ref

open Idealize.ShloMosaic Idealize.ShloMosaic.ValueIdx Idealize.SL.Sem Idealize.ShloMosaic.TcCoe
open Cert.ReferenceIdeal Cert.ReferenceIdeal.Read Cert.Sage

theorem agg_enc (x1 : FVec Ideal S100000x64 .f32) (x2 x3 : Agg.Edges) :
    val_main_v17 (F := Ideal) x1 x2 x3 = Agg.meanInto500 x1 x2 x3 := rfl

theorem agg_pat (x0 : FVec Ideal S500000x64 .f32) (x4 x5 : Agg.Edges) :
    val_main_v42 (F := Ideal) x0 x4 x5 = Agg.meanInto100 x0 x4 x5 := rfl

theorem agg_hidden (x0 : FVec Ideal S500000x64 .f32) (x1 : FVec Ideal S100000x64 .f32) (x2 x3 x4 x5 : Agg.Edges)
    (x9 x10 : FVec Ideal S64x128 .f32) (x11 : FVec Ideal S128 .f32) :
    val_main_v67 (F := Ideal) x0 x1 x2 x3 x4 x5 x9 x10 x11
      = Agg.wideMeanInto500 (val_main_v49 (F := Ideal) x0 x1 x4 x5 x9 x10 x11) x2 x3 := rfl

end Cert.Sage.Ref

end
-- ==== Proof.RefEnc.lean ====
/-
  The reference's first layer on the enc nodes, read entry by entry: a host product is the sum over the inner axis, the
  bias reaches its array through a row and then down the rows, the clamp is a maximum with a broadcast zero.
-/
import proofs.«108514_j67714454388971_1_alg».proof.Proof.RefAgg

set_option maxRecDepth 16384

noncomputable section

open scoped BigOperators

namespace Cert.Sage.Ref

open Idealize.ShloMosaic Idealize.ShloMosaic.ValueIdx Idealize.SL.Sem Idealize.ShloMosaic.TcCoe
open Cert.ReferenceIdeal Cert.ReferenceIdeal.Read Cert.Sage

/-! ## Operand indices at an entry -/

theorem l18 (p : Fin 500000) (q : Fin 128) (k : Fin 64) : lidx_main_v18 (ix2 p q) k = ix2 p k :=
  funext fun a => by match a with | ⟨0, _⟩ => rfl | ⟨1, _⟩ => rfl
theorem r18 (p : Fin 500000) (q : Fin 128) (k : Fin 64) : ridx_main_v18 (ix2 p q) k = ix2 k q :=
  funext fun a => by match a with | ⟨0, _⟩ => rfl | ⟨1, _⟩ => rfl
theorem l22 (p : Fin 500000) (q : Fin 128) (k : Fin 64) : lidx_main_v22 (ix2 p q) k = ix2 p k :=
  funext fun a => by match a with | ⟨0, _⟩ => rfl | ⟨1, _⟩ => rfl
theorem r22 (p : Fin 500000) (q : Fin 128) (k : Fin 64) : ridx_main_v22 (ix2 p q) k = ix2 k q :=
  funext fun a => by match a with | ⟨0, _⟩ => rfl | ⟨1, _⟩ => rfl
theorem b20 (p : Fin 500000) (q : Fin 128) : idx_main_v19 (idx_main_v20 (ix2 p q)) = ix1 q :=
  funext fun a => by match a with | ⟨0, _⟩ => rfl

theorem hidden_enc (x0 : FVec Ideal S500000x64 .f32) (x1 : FVec Ideal S100000x64 .f32) (x2 x3 : Agg.Edges)
    (x6 x7 : FVec Ideal S64x128 .f32) (x8 : FVec Ideal S128 .f32) :
    val_main_v24 (F := Ideal) x0 x1 x2 x3 x6 x7 x8 = hiddenEnc x0 x1 x2 x3 x6 x7 x8 := by
  funext i
  obtain ⟨p, q, rfl⟩ : ∃ (p : Fin 500000) (q : Fin 128), i = ix2 p q := ⟨i 0, i 1, eq_ix2 i⟩
  unfold hiddenEnc
  rw [hidden_apply]
  unfold conv
  rw [val_main_v24_apply, val_main_v23_apply, val_main_v21_apply, val_main_v18_apply, val_main_v20_apply, val_main_v19_apply,
    val_main_v22_apply, val_main_call0_v0_apply, val_main_call0_cst_apply]
  simp only [l18, r18, l22, r22, b20, agg_enc, Ideal.maximumf_def, Ideal.addf_def, Ideal.ofBits_def]

end Cert.Sage.Ref

end
-- ==== Proof.RefPat.lean ====
/-
  The reference's first layer on the pat nodes, read entry by entry (the same reading as on the enc nodes).
-/
import proofs.«108514_j67714454388971_1_alg».proof.Proof.RefAgg

set_option maxRecDepth 16384

noncomputable section

open scoped BigOperators

namespace Cert.Sage.Ref

open Idealize.ShloMosaic Idealize.ShloMosaic.ValueIdx Idealize.SL.Sem Idealize.ShloMosaic.TcCoe
open Cert.ReferenceIdeal Cert.ReferenceIdeal.Read Cert.Sage

/-! ## Operand indices at an entry -/

theorem l43 (p : Fin 100000) (q : Fin 128) (k : Fin 64) : lidx_main_v43 (ix2 p q) k = ix2 p k :=
  funext fun a => by match a with | ⟨0, _⟩ => rfl | ⟨1, _⟩ => rfl
theorem r43 (p : Fin 100000) (q : Fin 128) (k : Fin 64) : ridx_main_v43 (ix2 p q) k = ix2 k q :=
  funext fun a => by match a with | ⟨0, _⟩ => rfl | ⟨1, _⟩ => rfl
theorem l47 (p : Fin 100000) (q : Fin 128) (k : Fin 64) : lidx_main_v47 (ix2 p q) k = ix2 p k :=
  funext fun a => by match a with | ⟨0, _⟩ => rfl | ⟨1, _⟩ => rfl
theorem r47 (p : Fin 100000) (q : Fin 128) (k : Fin 64) : ridx_main_v47 (ix2 p q) k = ix2 k q :=
  funext fun a => by match a with | ⟨0, _⟩ => rfl | ⟨1, _⟩ => rfl
theorem b45 (p : Fin 100000) (q : Fin 128) : idx_main_v44 (idx_main_v45 (ix2 p q)) = ix1 q :=
  funext fun a => by match a with | ⟨0, _⟩ => rfl

theorem hidden_pat (x0 : FVec Ideal S500000x64 .f32) (x1 : FVec Ideal S100000x64 .f32) (x4 x5 : Agg.Edges)
    (x9 x10 : FVec Ideal S64x128 .f32) (x11 : FVec Ideal S128 .f32) :
    val_main_v49 (F := Ideal) x0 x1 x4 x5 x9 x10 x11 = hiddenPat x0 x1 x4 x5 x9 x10 x11 := by
  funext i
  obtain ⟨p, q, rfl⟩ : ∃ (p : Fin 100000) (q : Fin 128), i = ix2 p q := ⟨i 0, i 1, eq_ix2 i⟩
  unfold hiddenPat
  rw [hidden_apply]
  unfold conv
  rw [val_main_v49_apply, val_main_v48_apply, val_main_v46_apply, val_main_v43_apply, val_main_v45_apply, val_main_v44_apply,
    val_main_v47_apply, val_main_call1_v0_apply, val_main_call1_cst_apply]
  simp only [l43, r43, l47, r47, b45, agg_pat, Ideal.maximumf_def, Ideal.addf_def, Ideal.ofBits_def]

end Cert.Sage.Ref

end
-- ==== Proof.RefColumn.lean ====
/-
  The reference's second layer and read-out, read entry by entry over the hidden features of both node kinds.
-/
import proofs.«108514_j67714454388971_1_alg».proof.Proof.RefEnc
import proofs.«108514_j67714454388971_1_alg».proof.Proof.RefPat

set_option maxRecDepth 16384
set_option maxHeartbeats 1000000

noncomputable section

open scoped BigOperators

namespace Cert.Sage.Ref

open Idealize.ShloMosaic Idealize.ShloMosaic.ValueIdx Idealize.SL.Sem Idealize.ShloMosaic.TcCoe
open Cert.ReferenceIdeal Cert.ReferenceIdeal.Read Cert.Sage

/-! ## Operand indices at an entry -/

theorem l68 (p : Fin 500000) (q : Fin 128) (k : Fin 128) : lidx_main_v68 (ix2 p q) k = ix2 p k :=
  funext fun a => by match a with | ⟨0, _⟩ => rfl | ⟨1, _⟩ => rfl
theorem r68 (p : Fin 500000) (q : Fin 128) (k : Fin 128) : ridx_main_v68 (ix2 p q) k = ix2 k q :=
  funext fun a => by match a with | ⟨0, _⟩ => rfl | ⟨1, _⟩ => rfl
theorem l72 (p : Fin 500000) (q : Fin 128) (k : Fin 128) : lidx_main_v72 (ix2 p q) k = ix2 p k :=
  funext fun a => by match a with | ⟨0, _⟩ => rfl | ⟨1, _⟩ => rfl
theorem r72 (p : Fin 500000) (q : Fin 128) (k : Fin 128) : ridx_main_v72 (ix2 p q) k = ix2 k q :=
  funext fun a => by match a with | ⟨0, _⟩ => rfl | ⟨1, _⟩ => rfl
theorem b70 (p : Fin 500000) (q : Fin 128) : idx_main_v69 (idx_main_v70 (ix2 p q)) = ix1 q :=
  funext fun a => by match a with | ⟨0, _⟩ => rfl
theorem l74 (p : Fin 500000) (u : Fin 1) (k : Fin 128) : lidx_main_v74 (ix2 p u) k = ix2 p k :=
  funext fun a => by match a with | ⟨0, _⟩ => rfl | ⟨1, _⟩ => rfl
theorem r74 (p : Fin 500000) (u : Fin 1) (k : Fin 128) : ridx_main_v74 (ix2 p u) k = ix2 k (0 : Fin 1) :=
  funext fun a => by match a with | ⟨0, _⟩ => rfl | ⟨1, _⟩ => exact Fin.ext (by have h := u.isLt; show u.val = 0; omega)
theorem b76 (p : Fin 500000) (u : Fin 1) : idx_main_v75 (idx_main_v76 (ix2 p u)) = ix1 (0 : Fin 1) :=
  funext fun a => by match a with | ⟨0, _⟩ => rfl

theorem column_eq (x0 : FVec Ideal S500000x64 .f32) (x1 : FVec Ideal S100000x64 .f32) (x2 x3 x4 x5 : Agg.Edges)
    (x6 x7 : FVec Ideal S64x128 .f32) (x8 : FVec Ideal S128 .f32) (x9 x10 : FVec Ideal S64x128 .f32) (x11 : FVec Ideal S128 .f32)
    (x12 x13 : FVec Ideal S128x128 .f32) (x14 : FVec Ideal S128 .f32) (x18 : FVec Ideal S128x1 .f32) (x19 : FVec Ideal S1 .f32) :
    val_main_v77 (F := Ideal) x0 x1 x2 x3 x4 x5 x6 x7 x8 x9 x10 x11 x12 x13 x14 x18 x19
      = logitColumn (hiddenPat x0 x1 x4 x5 x9 x10 x11) (hiddenEnc x0 x1 x2 x3 x6 x7 x8) x2 x3 x12 x13 x14 x18 x19 := by
  funext i
  obtain ⟨p, u, rfl⟩ : ∃ (p : Fin 500000) (u : Fin 1), i = ix2 p u := ⟨i 0, i 1, eq_ix2 i⟩
  unfold logitColumn
  rw [logit_apply, val_main_v77_apply, val_main_v74_apply, val_main_v76_apply, val_main_v75_apply, b76]
  refine congrArg₂ (fun a b : EReal => a + b) (Finset.sum_congr rfl fun j _ => ?_) rfl
  rw [l74, r74, val_main_v73_apply, val_main_v71_apply, val_main_v68_apply, val_main_v70_apply, val_main_v69_apply,
    val_main_v72_apply, b70]
  refine congrArg (fun a : EReal => a * x18 (ix2 j (0 : Fin 1))) ?_
  unfold conv
  refine congrArg₂ (fun a b : EReal => a + b)
    (congrArg₂ (fun a b : EReal => a + b) (Finset.sum_congr rfl fun k _ => ?_) rfl) (Finset.sum_congr rfl fun k _ => ?_)
  · rw [l68, r68, agg_hidden, hidden_pat]
  · rw [l72, r72, hidden_enc]

end Cert.Sage.Ref

end
-- ==== Proof.RefValue.lean ====
/-
  The reference's result is the network.

  The reference spells the same network with host operations only; read stage by stage (the sibling modules), the term
  its run ends with is `logits` of its arguments.
-/
import proofs.«108514_j67714454388971_1_alg».proof.Proof.RefColumn

set_option maxRecDepth 16384

noncomputable section

open scoped BigOperators

namespace Cert.Sage.Ref

open Idealize.ShloMosaic Idealize.ShloMosaic.ValueIdx Idealize.SL.Sem Idealize.ShloMosaic.TcCoe
open Cert.ReferenceIdeal Cert.ReferenceIdeal.Read Cert.Sage

/-- The reference's result, as the run states it, is the network of its arguments. -/
theorem result_eq (m : (ℓ : Loc nD τ sig) → Buf (Elt Ideal) ℓ) (c : Dev nD) :
    Cert.ReferenceIdeal.Value.res_main_v78 m c
      = logits (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg18))
          (m ((c.tc : Thread nD τ).loc main_arg19)) := by
  rw [val_main_v78_eq]
  unfold val_main_v78 logits
  rw [column_eq]

end Cert.Sage.Ref

end
-- ==== Proof.lean ====
/-
  A two-layer mean-aggregation network on a bipartite graph with a linear read-out: the kernel program against its
  plain reference.

  The kernel program computes the three aggregations on the host and the dense part of each layer in a launch tiled over
  blocks of 10000 nodes (the third launch also does the read-out); the reference computes everything on the host.  On the
  extended reals both end with one and the same function of the twenty arguments, `Cert.Sage.logits`:
    * the aggregations are the same host lines in both programs and are carried as one function, never opened;
    * a launch's product into a zero accumulator and the host's product are the same sum over the inner axis, the rounding
      of the matrix operands on the way in being the identity on the extended reals;
    * a layer is row-wise, so 50 (or 10) blocks of rows of it tile it;
    * the additions are in the same order on both sides, so nothing has to be finite and the precondition is not used.
  The frames of the two kernel programs are the generated ones; the reference's is its generated run; the idealization
  rewrote nothing, so there is nothing to preserve.
-/
import proofs.«108514_j67714454388971_1_alg».proof.Defs
import proofs.«108514_j67714454388971_1_alg».proof.Proof.Gen.Kernel
import proofs.«108514_j67714454388971_1_alg».proof.Proof.Gen.Kernel.Skeleton
import proofs.«108514_j67714454388971_1_alg».proof.Proof.Gen.Kernel.Launch
import proofs.«108514_j67714454388971_1_alg».proof.Proof.Gen.Kernel.Points
import proofs.«108514_j67714454388971_1_alg».proof.Proof.Gen.Kernel.Frame
import proofs.«108514_j67714454388971_1_alg».proof.Proof.Gen.KernelIdeal
import proofs.«108514_j67714454388971_1_alg».proof.Proof.Gen.KernelIdeal.Skeleton
import proofs.«108514_j67714454388971_1_alg».proof.Proof.Gen.KernelIdeal.Launch
import proofs.«108514_j67714454388971_1_alg».proof.Proof.Gen.KernelIdeal.Points
import proofs.«108514_j67714454388971_1_alg».proof.Proof.Gen.KernelIdeal.Frame
import proofs.«108514_j67714454388971_1_alg».proof.Proof.Gen.ReferenceIdeal
import proofs.«108514_j67714454388971_1_alg».proof.Proof.Gen.ReferenceIdeal.Run
import proofs.«108514_j67714454388971_1_alg».proof.Proof.Gen.ReferenceIdeal.Read
import proofs.«108514_j67714454388971_1_alg».proof.Proof.Gen.Pre_finite_inputs
import proofs.«108514_j67714454388971_1_alg».proof.Proof.KernelValue
import proofs.«108514_j67714454388971_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs, run from memories that agree on the arguments, end with the network of those arguments in
    their result buffers. -/
theorem algebraic : Cert.algebraic_KernelIdeal_ReferenceIdeal := by
  intro m ρ m' ρ' _ hagree
  refine ⟨_, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  rw [Cert.Sage.Ref.result_eq, h0, h1, h2, h3, h4, h5, h6, h7, h8, h9, h10, h11, h12, h13, h14, h18, h19]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
